-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S64 .f32) (main_arg12 : FVec F S64x1 .f32) (main_arg13 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x1 .f32 := Host.absf main_arg12
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg7 : FVec F S64 .f32) (main_arg8 : FVec F S64x64 .f32) (main_arg9 : FVec F S64 .f32) (main_arg10 : FVec F S64x64 .f32) (main_arg11 : FVec F S64 .f32) (main_arg12 : FVec F S64x1 .f32) (main_arg13 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_arg12 main_arg13 main_v48 main_v49 main_v50

def fn_part1 {F : FTy → Type} [FloatOps F] (main_arg4 : FVec F S128x128 .f32) (main_arg5 : FVec F S128 .f32) (main_arg6 : FVec F S128x64 .f32) (main_arg7 : FVec F S64 .f32) (main_arg8 : FVec F S64x64 .f32) (main_arg9 : FVec F S64 .f32) (main_arg10 : FVec F S64x64 .f32) (main_arg11 : FVec F S64 .f32) (main_arg12 : FVec F S64x1 .f32) (main_arg13 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S1024x64 .f32) (main_arg1 : FVec F S1024x64 .f32) (main_arg2 : FVec F S128x128 .f32) (main_arg3 : FVec F S128 .f32) (main_arg4 : FVec F S128x128 .f32) (main_arg5 : FVec F S128 .f32) (main_arg6 : FVec F S128x64 .f32) (main_arg7 : FVec F S64 .f32) (main_arg8 : FVec F S64x64 .f32) (main_arg9 : FVec F S64 .f32) (main_arg10 : FVec F S64x64 .f32) (main_arg11 : FVec F S64 .f32) (main_arg12 : FVec F S64x1 .f32) (main_arg13 : FVec F S1 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S1024x64 : Shape := ⟨2, ![1024, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S64x128 : Shape := ⟨2, ![64, 128]⟩
abbrev S1024x1024 : Shape := ⟨2, ![1024, 1024]⟩
abbrev S32x128 : Shape := ⟨2, ![32, 128]⟩
abbrev S32x1x128 : Shape := ⟨3, ![32, 1, 128]⟩
abbrev S1x128x128 : Shape := ⟨3, ![1, 128, 128]⟩
abbrev S32x128x128 : Shape := ⟨3, ![32, 128, 128]⟩
abbrev S1x1x128 : Shape := ⟨3, ![1, 1, 128]⟩
abbrev S4096x128 : Shape := ⟨2, ![4096, 128]⟩
abbrev S1x128 : Shape := ⟨2, ![1, 128]⟩
abbrev S4096x64 : Shape := ⟨2, ![4096, 64]⟩
abbrev S1x64 : Shape := ⟨2, ![1, 64]⟩
abbrev S32x128x64 : Shape := ⟨3, ![32, 128, 64]⟩
abbrev S1x1x64 : Shape := ⟨3, ![1, 1, 64]⟩

abbrev nBuf : Space → Nat
  | .hbm => 17
  | .vmem => 19
  | .smem => 0
  | _ => 0

abbrev bufTy : (tb : Table) → Fin (tcTables nBuf tb) → BufTy
  | .hbm, ⟨0, _⟩ => ⟨S1024x64, .f32⟩
  | .hbm, ⟨1, _⟩ => ⟨S1024x64, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x1, .f32⟩
  | .hbm, ⟨13, _⟩ => ⟨S1, .f32⟩
  | .hbm, ⟨14, _⟩ => ⟨S64x128, .f32⟩
  | .hbm, ⟨15, _⟩ => ⟨S64x128, .f32⟩
  | .hbm, ⟨16, _⟩ => ⟨S1024x1024, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S64x128, .f32⟩
  | .local _ .vmem, ⟨5, _⟩ => ⟨S64x128, .f32⟩
  | .local _ .vmem, ⟨6, _⟩ => ⟨S128, .f32⟩
  | .local _ .vmem, ⟨7, _⟩ => ⟨S128x128, .f32⟩
  | .local _ .vmem, ⟨8, _⟩ => ⟨S128, .f32⟩
  | .local _ .vmem, ⟨9, _⟩ => ⟨S128x64, .f32⟩
  | .local _ .vmem, ⟨10, _⟩ => ⟨S64, .f32⟩
  | .local _ .vmem, ⟨11, _⟩ => ⟨S64x64, .f32⟩
  | .local _ .vmem, ⟨12, _⟩ => ⟨S64, .f32⟩
  | .local _ .vmem, ⟨13, _⟩ => ⟨S64x64, .f32⟩
  | .local _ .vmem, ⟨14, _⟩ => ⟨S64, .f32⟩
  | .local _ .vmem, ⟨15, _⟩ => ⟨S64x1, .f32⟩
  | .local _ .vmem, ⟨16, _⟩ => ⟨S1, .f32⟩
  | .local _ .vmem, ⟨17, _⟩ => ⟨S128x128, .f32⟩
  | .local _ .vmem, ⟨18, _⟩ => ⟨S128x128, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

class Facts₀ : Prop where
  slices_S128x128_S64x128_0_0 : S128x128.Slices ![0, 0] S64x128
  slices_S128x128_S64x128_64_0 : S128x128.Slices ![64, 0] S64x128
  inb_S128x64_S128x64_0_0 : ∀ a, (![0, 0] : Fin 2 → Nat) a + S128x64.size a ≤ S128x64.size a
  h_S128x64 : 0 < S128x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  inb_S128x128_S128x128_0_0 : ∀ a, (![0, 0] : Fin 2 → Nat) a + S128x128.size a ≤ S128x128.size a
  h_S128x128 : 0 < S128x128.numel
  inb_S64_S64_0 : ∀ a, (![0] : Fin 1 → Nat) a + S64.size a ≤ S64.size a
  h_S64 : 0 < S64.numel
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  shapeCasts_S64x1_S64 : S64x1.ShapeCasts S64
  inb_S1_S1_0 : ∀ a, (![0] : Fin 1 → Nat) a + S1.size a ≤ S1.size a
  h_S1 : 0 < S1.numel
  slices_S128x128_o0_0_S32x128 : S128x128.Slices ![0, 0] S32x128
  shapeCasts_S32x128_S32x1x128 : S32x128.ShapeCasts S32x1x128
  shapeCasts_S128x128_S1x128x128 : S128x128.ShapeCasts S1x128x128
  broadcasts_S32x1x128_S32x128x128 : S32x1x128.Broadcasts S32x128x128
  broadcasts_S1x128x128_S32x128x128 : S1x128x128.Broadcasts S32x128x128
  shapeCasts_S128_S1x1x128 : S128.ShapeCasts S1x1x128
  broadcasts_S1x1x128_S32x128x128 : S1x1x128.Broadcasts S32x128x128
  shapeCasts_S32x128x128_S4096x128 : S32x128x128.ShapeCasts S4096x128
  shapeCasts_S128_S1x128 : S128.ShapeCasts S1x128
  broadcasts_S1x128_S4096x128 : S1x128.Broadcasts S4096x128
  shapeCasts_S64_S1x64 : S64.ShapeCasts S1x64
  broadcasts_S1x64_S4096x64 : S1x64.Broadcasts S4096x64
  shapeCasts_S4096x64_S32x128x64 : S4096x64.ShapeCasts S32x128x64
  shapeCasts_S64_S1x1x64 : S64.ShapeCasts S1x1x64
  broadcasts_S1x1x64_S32x128x64 : S1x1x64.Broadcasts S32x128x64
  reduces_S32x128x64_S32x128 : S32x128x64.Reduces [2] S32x128
  inpos_S1_p0 : ∀ a, (![0] : Fin 1 → Nat) a < S1.size a
  inb_S128x128_S32x128_0_0 : ∀ a, (![0, 0] : Fin 2 → Nat) a + S32x128.size a ≤ S128x128.size a
  h_S32x128 : 0 < S32x128.numel
  slices_S128x128_o32_0_S32x128 : S128x128.Slices ![32, 0] S32x128
  inb_S128x128_S32x128_32_0 : ∀ a, (![32, 0] : Fin 2 → Nat) a + S32x128.size a ≤ S128x128.size a
  slices_S128x128_o64_0_S32x128 : S128x128.Slices ![64, 0] S32x128
  inb_S128x128_S32x128_64_0 : ∀ a, (![64, 0] : Fin 2 → Nat) a + S32x128.size a ≤ S128x128.size a
  slices_S128x128_o96_0_S32x128 : S128x128.Slices ![96, 0] S32x128
  inb_S128x128_S32x128_96_0 : ∀ a, (![96, 0] : Fin 2 → Nat) a + S32x128.size a ≤ S128x128.size a
  dot_S128x64_S64x128_S128x128_1_0_0_1_n_n_wf : DotDims.WF S128x64 S64x128 S128x128 [1] [0] [0] [1] [] []
  dot_S4096x128_S128x128_S4096x128_1_0_0_1_n_n_wf : DotDims.WF S4096x128 S128x128 S4096x128 [1] [0] [0] [1] [] []
  dot_S4096x128_S128x64_S4096x64_1_0_0_1_n_n_wf : DotDims.WF S4096x128 S128x64 S4096x64 [1] [0] [0] [1] [] []
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S1024x64.size a
  hwx0_0 : ∀ i : grid0.Coords, EltTy.bits .f32 = 32 ∨ (Rect.block (s := S1024x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S1024x64.size a
  hwx0_1 : ∀ i : grid0.Coords, EltTy.bits .f32 = 32 ∨ (Rect.block (s := S1024x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .f32 = 32 ∨ (Rect.block (s := S64x64) S64x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x1.size a ≤ S64x1.size a
  hwx0_13 : ∀ i : grid0.Coords, EltTy.bits .f32 = 32 ∨ (Rect.block (s := S64x1) S64x1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1.size a ≤ S1.size a
  hwx0_14 : ∀ i : grid0.Coords, EltTy.bits .f32 = 32 ∨ (Rect.block (s := S1) S1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S128x128.size a ≤ S1024x1024.size a
  hwx0_15 : ∀ i : grid0.Coords, EltTy.bits .f32 = 32 ∨ (Rect.block (s := S1024x1024) S128x128.size (cc0_transform_15 i) (hinb0_15 i)).WholeWords (EltTy.packing .f32)

variable [Facts₀]

def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_arg0) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S64x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg13) S1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v2) S128x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S1024x64 : Shape := ⟨2, ![1024, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1024x64 : Shape := ⟨3, ![1, 1024, 64]⟩
abbrev S1024x1024x64 : Shape := ⟨3, ![1024, 1024, 64]⟩
abbrev S1024x1x64 : Shape := ⟨3, ![1024, 1, 64]⟩
abbrev S1024x1024x128 : Shape := ⟨3, ![1024, 1024, 128]⟩
abbrev S1048576x128 : Shape := ⟨2, ![1048576, 128]⟩
abbrev S1x128 : Shape := ⟨2, ![1, 128]⟩
abbrev S_ : Shape := ⟨0, ![]⟩
abbrev S1048576x64 : Shape := ⟨2, ![1048576, 64]⟩
abbrev S1x64 : Shape := ⟨2, ![1, 64]⟩
abbrev S1048576x1 : Shape := ⟨2, ![1048576, 1]⟩
abbrev S1x1 : Shape := ⟨2, ![1, 1]⟩
abbrev S1024x1024 : Shape := ⟨2, ![1024, 1024]⟩

abbrev nBuf : Space → Nat
  | .hbm => 61
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1024x64, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x1, .f32⟩
  | .hbm, ⟨13, _⟩ => ⟨S1, .f32⟩
  | .hbm, ⟨14, _⟩ => ⟨S1x1024x64, .f32⟩
  | .hbm, ⟨15, _⟩ => ⟨S1024x1024x64, .f32⟩
  | .hbm, ⟨16, _⟩ => ⟨S1024x1x64, .f32⟩
  | .hbm, ⟨17, _⟩ => ⟨S1024x1024x64, .f32⟩
  | .hbm, ⟨18, _⟩ => ⟨S1024x1024x128, .f32⟩
  | .hbm, ⟨19, _⟩ => ⟨S1048576x128, .f32⟩
  | .hbm, ⟨20, _⟩ => ⟨S1048576x128, .f32⟩
  | .hbm, ⟨21, _⟩ => ⟨S1x128, .f32⟩
  | .hbm, ⟨22, _⟩ => ⟨S1048576x128, .f32⟩
  | .hbm, ⟨23, _⟩ => ⟨S1048576x128, .f32⟩
  | .hbm, ⟨24, _⟩ => ⟨S_, .f32⟩
  | .hbm, ⟨25, _⟩ => ⟨S1048576x128, .f32⟩
  | .hbm, ⟨26, _⟩ => ⟨S1048576x128, .f32⟩
  | .hbm, ⟨27, _⟩ => ⟨S1048576x128, .f32⟩
  | .hbm, ⟨28, _⟩ => ⟨S1x128, .f32⟩
  | .hbm, ⟨29, _⟩ => ⟨S1048576x128, .f32⟩
  | .hbm, ⟨30, _⟩ => ⟨S1048576x128, .f32⟩
  | .hbm, ⟨31, _⟩ => ⟨S_, .f32⟩
  | .hbm, ⟨32, _⟩ => ⟨S1048576x128, .f32⟩
  | .hbm, ⟨33, _⟩ => ⟨S1048576x128, .f32⟩
  | .hbm, ⟨34, _⟩ => ⟨S1048576x64, .f32⟩
  | .hbm, ⟨35, _⟩ => ⟨S1x64, .f32⟩
  | .hbm, ⟨36, _⟩ => ⟨S1048576x64, .f32⟩
  | .hbm, ⟨37, _⟩ => ⟨S1048576x64, .f32⟩
  | .hbm, ⟨38, _⟩ => ⟨S_, .f32⟩
  | .hbm, ⟨39, _⟩ => ⟨S1048576x64, .f32⟩
  | .hbm, ⟨40, _⟩ => ⟨S1048576x64, .f32⟩
  | .hbm, ⟨41, _⟩ => ⟨S1048576x64, .f32⟩
  | .hbm, ⟨42, _⟩ => ⟨S1x64, .f32⟩
  | .hbm, ⟨43, _⟩ => ⟨S1048576x64, .f32⟩
  | .hbm, ⟨44, _⟩ => ⟨S1048576x64, .f32⟩
  | .hbm, ⟨45, _⟩ => ⟨S_, .f32⟩
  | .hbm, ⟨46, _⟩ => ⟨S1048576x64, .f32⟩
  | .hbm, ⟨47, _⟩ => ⟨S1048576x64, .f32⟩
  | .hbm, ⟨48, _⟩ => ⟨S1048576x64, .f32⟩
  | .hbm, ⟨49, _⟩ => ⟨S1x64, .f32⟩
  | .hbm, ⟨50, _⟩ => ⟨S1048576x64, .f32⟩
  | .hbm, ⟨51, _⟩ => ⟨S1048576x64, .f32⟩
  | .hbm, ⟨52, _⟩ => ⟨S_, .f32⟩
  | .hbm, ⟨53, _⟩ => ⟨S1048576x64, .f32⟩
  | .hbm, ⟨54, _⟩ => ⟨S1048576x64, .f32⟩
  | .hbm, ⟨55, _⟩ => ⟨S1048576x1, .f32⟩
  | .hbm, ⟨56, _⟩ => ⟨S1x1, .f32⟩
  | .hbm, ⟨57, _⟩ => ⟨S1048576x1, .f32⟩
  | .hbm, ⟨58, _⟩ => ⟨S1048576x1, .f32⟩
  | .hbm, ⟨59, _⟩ => ⟨S1024x1024, .f32⟩
  | .hbm, ⟨60, _⟩ => ⟨S1024x1024, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_call0_cst : Ref sig .tc := ⟨.hbm, 24, rfl⟩
abbrev main_call0_v0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call1_cst : Ref sig .tc := ⟨.hbm, 31, rfl⟩
abbrev main_call1_v0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call2_cst : Ref sig .tc := ⟨.hbm, 38, rfl⟩
abbrev main_call2_v0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call3_cst : Ref sig .tc := ⟨.hbm, 45, rfl⟩
abbrev main_call3_v0 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call4_cst : Ref sig .tc := ⟨.hbm, 52, rfl⟩
abbrev main_call4_v0 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩

abbrev nD : Nat := 1
abbrev τ : Topo := Topo.v7x

variable {F : FTy → Type} [FloatOps F]

class Facts₀ : Prop where
  bcast_S1024x64_S1x1024x64_1_2 : S1024x64.BroadcastsInDim S1x1024x64 (![1, 2] : Fin 2 → Fin S1x1024x64.rank)
  bcast_S1x1024x64_S1024x1024x64_0_1_2 : S1x1024x64.BroadcastsInDim S1024x1024x64 (![0, 1, 2] : Fin 3 → Fin S1024x1024x64.rank)
  bcast_S1024x64_S1024x1x64_0_2 : S1024x64.BroadcastsInDim S1024x1x64 (![0, 2] : Fin 2 → Fin S1024x1x64.rank)
  bcast_S1024x1x64_S1024x1024x64_0_1_2 : S1024x1x64.BroadcastsInDim S1024x1024x64 (![0, 1, 2] : Fin 3 → Fin S1024x1024x64.rank)
  concatenates_S1024x1024x64_S1024x1024x64_S1024x1024x128_d2 : Shape.Concatenates [S1024x1024x64, S1024x1024x64] S1024x1024x128 2
  shapeCasts_S1024x1024x128_S1048576x128 : S1024x1024x128.ShapeCasts S1048576x128
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  bcast_S_S1048576x128 : S_.BroadcastsInDim S1048576x128 (![] : Fin 0 → Fin S1048576x128.rank)
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  shapeCasts_S1048576x1_S1024x1024 : S1048576x1.ShapeCasts S1024x1024
  transposes_S1024x1024_S1024x1024_1_0 : S1024x1024.Transposes [1, 0] S1024x1024
  dot_S1048576x128_S128x128_S1048576x128_1_0_0_1_n_n_wf : DotDims.WF S1048576x128 S128x128 S1048576x128 [1] [0] [0] [1] [] []
  dot_S1048576x128_S128x64_S1048576x64_1_0_0_1_n_n_wf : DotDims.WF S1048576x128 S128x64 S1048576x64 [1] [0] [0] [1] [] []
  dot_S1048576x64_S64x64_S1048576x64_1_0_0_1_n_n_wf : DotDims.WF S1048576x64 S64x64 S1048576x64 [1] [0] [0] [1] [] []
  dot_S1048576x64_S64x1_S1048576x1_1_0_0_1_n_n_wf : DotDims.WF S1048576x64 S64x1 S1048576x1 [1] [0] [0] [1] [] []

variable [Facts₀]

def dot_S1048576x128_S128x128_S1048576x128_1_0_0_1_n_n : DotDims S1048576x128 S128x128 S1048576x128 where
  lhsContracting := [1]
  rhsContracting := [0]
  lhsNonContracting := [0]
  rhsNonContracting := [1]
  lhsBatch := []
  rhsBatch := []
  wf := dot_S1048576x128_S128x128_S1048576x128_1_0_0_1_n_n_wf
def dot_S1048576x128_S128x64_S1048576x64_1_0_0_1_n_n : DotDims S1048576x128 S128x64 S1048576x64 where
  lhsContracting := [1]
  rhsContracting := [0]
  lhsNonContracting := [0]
  rhsNonContracting := [1]
  lhsBatch := []
  rhsBatch := []
  wf := dot_S1048576x128_S128x64_S1048576x64_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x1_S1048576x1_1_0_0_1_n_n : DotDims S1048576x64 S64x1 S1048576x1 where
  lhsContracting := [1]
  rhsContracting := [0]
  lhsNonContracting := [0]
  rhsNonContracting := [1]
  lhsBatch := []
  rhsBatch := []
  wf := dot_S1048576x64_S64x1_S1048576x1_1_0_0_1_n_n_wf

class Facts : Prop extends Facts₀ where

variable [Facts]
-- ==== Proof.Spec.lean ====
/-
  The function both programs compute, stated once over the extended reals with no program in sight.

  A pair `(p, q)` of a row `x p` of the first input and a row `y q` of the second is scored by a six-layer
  perceptron applied to the concatenation `x p ++ y q` (64 + 64 = 128 features): five layers `h ↦ max (h · W + b) 0`
  of widths 128, 128, 64, 64, 64 and a last affine layer of width one. The first layer's product over the 128
  concatenated features is written here as the sum of two products over 64 features each, the upper half of the
  first weight matrix acting on `x p` and the lower half on `y q`; everything after it (`tail`) is a function of the
  first layer's activations alone.
-/
import Idealize.ShloMosaic.PureOps.Ideal
import Idealize.ShloMosaic.Lib.ValueIdx

noncomputable section

open scoped BigOperators

namespace Cert.PairScore

open Idealize.ShloMosaic Idealize.ShloMosaic.ValueIdx

/-- One affine layer: `(h · W + b) n = Σ_k h k · W k n + b n`. -/
def dense {K N : ℕ} (W : Fin K → Fin N → EReal) (b : Fin N → EReal) (h : Fin K → EReal) : Fin N → EReal :=
  fun n => (∑ k, h k * W k n) + b n

/-- The rectifier, entry by entry. -/
def relu {N : ℕ} (v : Fin N → EReal) : Fin N → EReal := fun n => max (v n) 0

/-- Layers two to six, from the first layer's activations `h0`: four rectified affine layers and the final
    width-one affine layer `Σ_k h4 k · w5 k + b5`. -/
def tail (W1 : Fin 128 → Fin 128 → EReal) (b1 : Fin 128 → EReal) (W2 : Fin 128 → Fin 64 → EReal) (b2 : Fin 64 → EReal)
    (W3 : Fin 64 → Fin 64 → EReal) (b3 : Fin 64 → EReal) (W4 : Fin 64 → Fin 64 → EReal) (b4 : Fin 64 → EReal)
    (w5 : Fin 64 → EReal) (b5 : EReal) (h0 : Fin 128 → EReal) : EReal :=
  (∑ k, relu (dense W4 b4 (relu (dense W3 b3 (relu (dense W2 b2 (relu (dense W1 b1 h0))))))) k * w5 k) + b5

/-- The first layer's activations for the rows `xr`, `yr`: the product over the concatenated row split into the
    part of `xr` against the upper half `w0x` and the part of `yr` against the lower half `w0y`. -/
def first (xr yr : Fin 64 → EReal) (w0x w0y : Fin 64 → Fin 128 → EReal) (b0 : Fin 128 → EReal) : Fin 128 → EReal :=
  relu fun n => ((∑ k, xr k * w0x k n) + (∑ k, yr k * w0y k n)) + b0 n

/-- The score of one pair of rows. -/
def pairScore (xr yr : Fin 64 → EReal) (w0x w0y : Fin 64 → Fin 128 → EReal) (b0 : Fin 128 → EReal)
    (W1 : Fin 128 → Fin 128 → EReal) (b1 : Fin 128 → EReal) (W2 : Fin 128 → Fin 64 → EReal) (b2 : Fin 64 → EReal)
    (W3 : Fin 64 → Fin 64 → EReal) (b3 : Fin 64 → EReal) (W4 : Fin 64 → Fin 64 → EReal) (b4 : Fin 64 → EReal)
    (w5 : Fin 64 → EReal) (b5 : EReal) : EReal :=
  tail W1 b1 W2 b2 W3 b3 W4 b4 w5 b5 (first xr yr w0x w0y b0)

/-- The score of the pair `(p, q)` read off the fourteen argument arrays. -/
def scoreAt (X Y : (⟨2, ![1024, 64]⟩ : Shape).Idx → EReal) (W0 : (⟨2, ![128, 128]⟩ : Shape).Idx → EReal)
    (B0 : (⟨1, ![128]⟩ : Shape).Idx → EReal) (W1 : (⟨2, ![128, 128]⟩ : Shape).Idx → EReal) (B1 : (⟨1, ![128]⟩ : Shape).Idx → EReal)
    (W2 : (⟨2, ![128, 64]⟩ : Shape).Idx → EReal) (B2 : (⟨1, ![64]⟩ : Shape).Idx → EReal)
    (W3 : (⟨2, ![64, 64]⟩ : Shape).Idx → EReal) (B3 : (⟨1, ![64]⟩ : Shape).Idx → EReal)
    (W4 : (⟨2, ![64, 64]⟩ : Shape).Idx → EReal) (B4 : (⟨1, ![64]⟩ : Shape).Idx → EReal)
    (W5 : (⟨2, ![64, 1]⟩ : Shape).Idx → EReal) (B5 : (⟨1, ![1]⟩ : Shape).Idx → EReal) (p q : Fin 1024) : EReal :=
  pairScore (fun k => X (ix2 p k)) (fun k => Y (ix2 q k))
    (fun k n => W0 (ix2 (Fin.castAdd 64 k) n)) (fun k n => W0 (ix2 (Fin.natAdd 64 k) n)) (fun n => B0 (ix1 n))
    (fun k n => W1 (ix2 k n)) (fun n => B1 (ix1 n)) (fun k n => W2 (ix2 k n)) (fun n => B2 (ix1 n))
    (fun k n => W3 (ix2 k n)) (fun n => B3 (ix1 n)) (fun k n => W4 (ix2 k n)) (fun n => B4 (ix1 n))
    (fun k => W5 (ix2 k (0 : Fin 1))) (B5 (ix1 (0 : Fin 1)))

/-- The whole `1024 × 1024` table of scores: entry `(p, q)` is the score of `x p` with `y q`. -/
def scores (X Y : (⟨2, ![1024, 64]⟩ : Shape).Idx → EReal) (W0 : (⟨2, ![128, 128]⟩ : Shape).Idx → EReal)
    (B0 : (⟨1, ![128]⟩ : Shape).Idx → EReal) (W1 : (⟨2, ![128, 128]⟩ : Shape).Idx → EReal) (B1 : (⟨1, ![128]⟩ : Shape).Idx → EReal)
    (W2 : (⟨2, ![128, 64]⟩ : Shape).Idx → EReal) (B2 : (⟨1, ![64]⟩ : Shape).Idx → EReal)
    (W3 : (⟨2, ![64, 64]⟩ : Shape).Idx → EReal) (B3 : (⟨1, ![64]⟩ : Shape).Idx → EReal)
    (W4 : (⟨2, ![64, 64]⟩ : Shape).Idx → EReal) (B4 : (⟨1, ![64]⟩ : Shape).Idx → EReal)
    (W5 : (⟨2, ![64, 1]⟩ : Shape).Idx → EReal) (B5 : (⟨1, ![1]⟩ : Shape).Idx → EReal) :
    (⟨2, ![1024, 1024]⟩ : Shape).Idx → EReal :=
  fun j => scoreAt X Y W0 B0 W1 B1 W2 B2 W3 B3 W4 B4 W5 B5 (j 0) (j 1)

end Cert.PairScore

end
-- ==== Proof.LibKeepdims3.lean ====
/-
  Layout facts a reduction over the LAST axis of a three-axis array meets when its result is kept as a trailing
  unit axis and spread back, each read at an entry given by its coordinates: the sum along the last axis of an
  `[a, b, c]` array; an `[a, b]` array viewed as `[a, b, 1]` or as `[a, 1, b]`, and an `[a, 1]` array viewed as `[a, 1, 1]` or as `[a]`; and the
  three spreadings `[a, 1, 1] → [a, b, 1]`, `[a, b, 1] → [a, b, c]`, `[a, 1, c] → [a, b, c]`. They hold for any
  extents, and all but the sum for entries of any type.
-/
import Idealize.ShloMosaic.Lib.Pipeline.Value
import Idealize.ShloMosaic.Lib.ValueIdx
import Idealize.ShloMosaic.PureOps.Ideal.Laws

noncomputable section

open scoped BigOperators

namespace Cert.LibKeepdims3

open Idealize.ShloMosaic Idealize.ShloMosaic.ValueIdx

variable {α : Type}

/-- An `[a, b]` array cast to `[a, b, 1]` reads, at `(i, j, u)`, the operand at `(i, j)`: the same row-major position. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, 1]` array cast to `[a, 1, 1]` reads, at `(i, u, v)`, the operand at `(i, u)`. -/
theorem shapeCast_a1_a11_apply {a : ℕ} (x : (⟨2, ![a, 1]⟩ : Shape).Idx → α)
    (h : (⟨2, ![a, 1]⟩ : Shape).ShapeCasts ⟨3, ![a, 1, 1]⟩) (i : Fin a) (u v : Fin 1) :
    shapeCast ⟨3, ![a, 1, 1]⟩ x h (ix3 i u v) = x (ix2 i u) :=
  shapeCast_apply x h _ _ (by
    have hv : v.val = 0 := by omega
    rw [Shape.rowMajor_val_two, Shape.rowMajor_val_three]
    show i.val * 1 + u.val = (i.val * 1 + u.val) * 1 + v.val
    omega)

/-- An `[a, 1]` array cast to `[a]` reads, at `i`, the operand's one entry of row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a, b]` array cast to `[a, 1, b]` reads, at `(i, u, j)`, the operand at `(i, j)`: the same row-major position. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An `[a, 1, 1]` array spread to `[a, b, 1]` reads, at `(i, j, u)`, the operand's one entry of row `i`. -/
theorem broadcastTo_a11_ab1_apply {a b : ℕ} (v : (⟨3, ![a, 1, 1]⟩ : Shape).Idx → α)
    (h : (⟨3, ![a, 1, 1]⟩ : Shape).Broadcasts ⟨3, ![a, b, 1]⟩) (i : Fin a) (j : Fin b) (u : Fin 1) :
    broadcastTo ⟨3, ![a, b, 1]⟩ v h (ix3 i j u) = v (ix3 i (0 : Fin 1) (0 : Fin 1)) := by
  refine broadcastTo_apply v h (ix3 i j u) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- An `[a, b, 1]` array spread to `[a, b, c]` reads, at `(i, j, k)`, the operand's one entry at `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array spread to `[a, b, c]` reads, at `(i, j, k)`, the operand at `(i, 0, k)`: the same for every `j`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- Over the extended reals, the sum of an `[a, b, c]` array along its last axis, started from the zero word, is at
    `(i, j)` the sum over `k` of the entries `(i, j, k)`. -/
theorem multiReduction_add_last_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  refine Finset.sum_congr rfl fun k _ => congrArg src ?_
  funext ax
  apply Fin.ext
  match ax with
  | ⟨0, _⟩ => rfl
  | ⟨1, _⟩ => rfl
  | ⟨2, _⟩ => rfl

/-- The same sum with the accumulator's side condition typed as a printed program's evidence for it really is (the
    zero word equal to itself), so that the statement is found by rewriting inside a printed value. -/
theorem multiReduction_add_last_printed {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ k : Fin c, src (ix3 i j k) :=
  multiReduction_add_last_apply src h hφ hacc i j

/-- The sum of an `[a, b]` array along its second axis, at row `i`, with the side condition typed as printed. -/
theorem multiReduction_add_rows_printed {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims3

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibFlatten3.lean ====
/-
  Layout facts met when a three-axis array `[a, b, c]` is handled as a matrix of `a · b` rows: the cast that
  flattens its two leading axes into one (row `i · b + j` is the old `(i, j)`) and the cast back; one `[b, c]` slab
  `[1, b, c]` spread along a new leading axis to `[a, b, c]`; and one vector `[c]` viewed as `[1, 1, c]` and spread
  over both leading axes to `[a, b, c]`. Each is read at an entry given by its coordinates. They hold for any extents
  and for entries of any type.
-/
import Idealize.ShloMosaic.Lib.Pipeline.Value
import Idealize.ShloMosaic.Lib.ValueIdx

noncomputable section

namespace Cert.LibFlatten3

open Idealize.ShloMosaic Idealize.ShloMosaic.ValueIdx

variable {α : Type}

/-- An `[a, b, c]` array cast to `[m, c]` (with `m = a · b`) reads, at `(ρ, k)` with `ρ = i · b + j`, the operand at
    `(i, j, k)`: the same row-major position. -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (ρ : Fin m)
    (hρ : ρ.val = i.val * b + j.val) :
    shapeCast ⟨2, ![m, c]⟩ x h (ix2 ρ k) = x (ix3 i j k) :=
  shapeCast_apply x h _ _ (by
    rw [Shape.rowMajor_val_two, Shape.rowMajor_val_three]
    show (i.val * b + j.val) * c + k.val = ρ.val * c + k.val
    rw [hρ])

/-- An `[m, c]` array (with `m = a · b`) cast to `[a, b, c]` reads, at `(i, j, k)`, the operand at row `ρ = i · b + j`,
    column `k`. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (ρ : Fin m)
    (hρ : ρ.val = i.val * b + j.val) :
    shapeCast ⟨3, ![a, b, c]⟩ x h (ix3 i j k) = x (ix2 ρ k) :=
  shapeCast_apply x h _ _ (by
    rw [Shape.rowMajor_val_two, Shape.rowMajor_val_three]
    show ρ.val * c + k.val = (i.val * b + j.val) * c + k.val
    rw [hρ])

/-- A `[1, b, c]` array spread to `[a, b, c]` reads, at `(i, j, k)`, the operand at `(0, j, k)`: the same for every `i`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[c]` vector cast to `[1, 1, c]` reads, at `(u, v, k)`, the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * c + k.val
    rw [hu, hv]
    omega)

/-- A `[1, 1, c]` array spread to `[a, b, c]` reads, at `(i, j, k)`, the operand's entry `k`: the same for every `(i, j)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LibFlatten3

end
-- ==== Proof.KernelChunk.lean ====
/-
  What one 32-row slab of the kernel's output block holds, entry by entry.

  The kernel handles its 128 × 128 block of pairs in four slabs of 32 rows. For a slab it forms the 32 · 128 pairs'
  first-layer activations `max (hx r + hy q + b0) 0` as a matrix of 4096 rows (row `r · 128 + q` is the pair of the
  slab's row `r` with column `q`), pushes the matrix through four rectified affine layers row by row, and contracts
  the 64 last activations of each row with the final weight vector. Every step acts on each row by itself, so the
  value at `(r, q)` is `PairScore.tail` of that pair's first-layer activations.
-/
import proofs.«146270_j61692910240322_2_alg».proof.Proof.Gen.KernelIdeal.Skeleton
import proofs.«146270_j61692910240322_2_alg».proof.Proof.Spec
import proofs.«146270_j61692910240322_2_alg».proof.Proof.LibKeepdims3
import proofs.«146270_j61692910240322_2_alg».proof.Proof.LibPlainDot
import proofs.«146270_j61692910240322_2_alg».proof.Proof.LibFlatten3
import Idealize.ShloMosaic.Lib.ValueLayout
import Idealize.ShloMosaic.Lib.Pipeline.Value
import Idealize.ShloMosaic.PureOps.Ideal.Laws

noncomputable section

open scoped BigOperators

namespace Cert.KernelIdeal.Slab

open Cert.KernelIdeal Cert.KernelIdeal.Gen Idealize.ShloMosaic Idealize.ShloMosaic.ValueIdx
open Cert.PairScore Cert.LibKeepdims3 Cert.LibPlainDot Cert.LibFlatten3

/-! ## The three kinds of step, named -/

/-- The slab's first-layer activations as a 4096-row matrix: the slab's 32 rows of `hx` against all 128 rows of
    `hy`, plus the bias, rectified, the two leading axes then flattened. -/
def act0 (hxc : FVec Ideal S32x128 .bf16) (hy : FVec Ideal S128x128 .bf16) (b0 : FVec Ideal S128 .bf16) :
    FVec Ideal S4096x128 .bf16 :=
  shapeCast S4096x128
    (maximumf
      (addf
        (addf (broadcastTo S32x128x128 (shapeCast S32x1x128 hxc shapeCasts_S32x128_S32x1x128) broadcasts_S32x1x128_S32x128x128)
          (broadcastTo S32x128x128 (shapeCast S1x128x128 hy shapeCasts_S128x128_S1x128x128) broadcasts_S1x128x128_S32x128x128))
        (broadcastTo S32x128x128 (shapeCast S1x1x128 b0 shapeCasts_S128_S1x1x128) broadcasts_S1x1x128_S32x128x128))
      (broadcast S32x128x128 (Scalar.ofBits .bf16 0x0000#16)))
    shapeCasts_S32x128x128_S4096x128

/-- One rectified affine layer on a matrix of rows: the product into the zero accumulator, the bias spread over the
    rows, the maximum with zero. -/
def layer {R K N : ℕ} (D : DotDims ⟨2, ![R, K]⟩ ⟨2, ![K, N]⟩ ⟨2, ![R, N]⟩)
    (A : FVec Ideal ⟨2, ![R, K]⟩ .bf16) (W : FVec Ideal ⟨2, ![K, N]⟩ .bf16) (b : Vec Ideal ⟨1, ![N]⟩ .f32)
    (hc : (⟨1, ![N]⟩ : Shape).ShapeCasts ⟨2, ![1, N]⟩) (hb : (⟨2, ![1, N]⟩ : Shape).Broadcasts ⟨2, ![R, N]⟩) :
    FVec Ideal ⟨2, ![R, N]⟩ .f32 :=
  maximumf
    (addf (matmul D none A W (constant ⟨2, ![R, N]⟩ .f32 0x00000000#32))
      (broadcastTo ⟨2, ![R, N]⟩ (shapeCast ⟨2, ![1, N]⟩ b hc) hb))
    (broadcast ⟨2, ![R, N]⟩ (Scalar.ofBits .f32 0x00000000#32))

/-- The last, width-one layer: the 4096 rows regrouped as 32 × 128, each row's 64 activations multiplied by the
    weight vector and summed, plus the scalar bias. -/
def last (H4 : FVec Ideal S4096x64 .f32) (w5 : FVec Ideal S64 .f32) (b5 : Vec Ideal S1 .f32) : FVec Ideal S32x128 .f32 :=
  addf
    (multiReduction .add [2] S32x128
      (mulf (shapeCast S32x128x64 H4 shapeCasts_S4096x64_S32x128x64)
        (broadcastTo S32x128x64 (shapeCast S1x1x64 w5 shapeCasts_S64_S1x1x64) broadcasts_S1x1x64_S32x128x64))
      0x00000000#32 reduces_S32x128x64_S32x128 (.inl rfl) rfl)
    (broadcast S32x128 (extractAt ![0] b5 inpos_S1_p0))

/-- The slab's stored value is these steps composed (the changes of float format between the layers are the
    identity on the extended reals). -/
theorem slab_eq (v13 : FVec Ideal S128x128 .bf16) (v15 : FVec Ideal S128 .bf16) (v17 : FVec Ideal S128x128 .bf16)
    (v18 : Vec Ideal S128 .f32) (v20 : FVec Ideal S128x64 .bf16) (v21 : Vec Ideal S64 .f32) (v23 : FVec Ideal S64x64 .bf16)
    (v24 : Vec Ideal S64 .f32) (v26 : FVec Ideal S64x64 .bf16) (v27 : Vec Ideal S64 .f32) (v29 : FVec Ideal S64 .f32)
    (v30 : Vec Ideal S1 .f32) (v31 : FVec Ideal S32x128 .bf16) :
    k0_pay10 v13 v15 v17 v18 v20 v21 v23 v24 v26 v27 v29 v30 v31
      = last
          (layer dot_S4096x64_S64x64_S4096x64_1_0_0_1_n_n
            (layer dot_S4096x64_S64x64_S4096x64_1_0_0_1_n_n
              (layer dot_S4096x128_S128x64_S4096x64_1_0_0_1_n_n
                (layer dot_S4096x128_S128x128_S4096x128_1_0_0_1_n_n (act0 v31 v13 v15) v17 v18
                  shapeCasts_S128_S1x128 broadcasts_S1x128_S4096x128)
                v20 v21 shapeCasts_S64_S1x64 broadcasts_S1x64_S4096x64)
              v23 v24 shapeCasts_S64_S1x64 broadcasts_S1x64_S4096x64)
            v26 v27 shapeCasts_S64_S1x64 broadcasts_S1x64_S4096x64)
          v29 v30 := rfl

/-! ## Each step read at an entry -/

/-- The bf16 zero word is the extended real `0`. -/
theorem zero_bf16 : (Scalar.ofBits .bf16 0x0000#16 : Ideal .bf16) = 0 := by
  simp [Scalar.ofBits, Ideal.ofBits, Ideal.ieee]

/-- Row `r · 128 + q` of the first-layer matrix is the pair of the slab's row `r` with column `q`. -/
theorem act0_apply (hxc : FVec Ideal S32x128 .bf16) (hy : FVec Ideal S128x128 .bf16) (b0 : FVec Ideal S128 .bf16)
    (r : Fin 32) (q n : Fin 128) (ρ : Fin 4096) (hρ : ρ.val = r.val * 128 + q.val) :
    act0 hxc hy b0 (ix2 ρ n) = max ((hxc (ix2 r n) + hy (ix2 q n)) + b0 (ix1 n)) 0 := by
  unfold act0
  rw [shapeCast_abc_mc_apply _ _ r q n ρ hρ]
  show max ((broadcastTo S32x128x128 _ _ (ix3 r q n) + broadcastTo S32x128x128 _ _ (ix3 r q n))
      + broadcastTo S32x128x128 _ _ (ix3 r q n)) (Scalar.ofBits .bf16 0x0000#16) = _
  rw [broadcastTo_a1c_abc_apply, broadcastTo_1bc_abc_apply, broadcastTo_11c_abc_apply, shapeCast_ab_a1b_apply,
    shapeCast_ab_1ab_apply, shapeCast_c_11c_apply, zero_bf16]

/-- A rectified affine layer acts on each row by itself. -/
theorem layer_apply {R K N : ℕ} (D : DotDims ⟨2, ![R, K]⟩ ⟨2, ![K, N]⟩ ⟨2, ![R, N]⟩) (hD : Plain D)
    (A : FVec Ideal ⟨2, ![R, K]⟩ .bf16) (W : FVec Ideal ⟨2, ![K, N]⟩ .bf16) (b : Vec Ideal ⟨1, ![N]⟩ .f32)
    (hc : (⟨1, ![N]⟩ : Shape).ShapeCasts ⟨2, ![1, N]⟩) (hb : (⟨2, ![1, N]⟩ : Shape).Broadcasts ⟨2, ![R, N]⟩)
    (ρ : Fin R) (n : Fin N) :
    layer D A W b hc hb (ix2 ρ n) = max ((∑ k : Fin K, A (ix2 ρ k) * W (ix2 k n)) + b (ix1 n)) 0 := by
  unfold layer
  show max (matmul D none A W (constant ⟨2, ![R, N]⟩ .f32 0x00000000#32) (ix2 ρ n)
      + broadcastTo ⟨2, ![R, N]⟩ (shapeCast ⟨2, ![1, N]⟩ b hc) hb (ix2 ρ n)) (Ideal.ofBits .f32 0x00000000#32) = _
  rw [Ideal.ofBits_zero_f32, broadcastTo_1b_ab_apply, shapeCast_a_1a_apply]
  refine congrArg (fun z => max (z + b (ix1 n)) 0) ?_
  exact (Ideal.matmul_constant_zero_apply D none A W (ix2 ρ n)).trans (hD.sum_eq A W ρ n)

/-- The last layer at `(r, q)` contracts row `r · 128 + q` with the weight vector and adds the bias. -/
theorem last_apply (H4 : FVec Ideal S4096x64 .f32) (w5 : FVec Ideal S64 .f32) (b5 : Vec Ideal S1 .f32)
    (r : Fin 32) (q : Fin 128) (ρ : Fin 4096) (hρ : ρ.val = r.val * 128 + q.val) :
    last H4 w5 b5 (ix2 r q) = (∑ k : Fin 64, H4 (ix2 ρ k) * w5 (ix1 k)) + b5 (ix1 (0 : Fin 1)) := by
  unfold last
  show multiReduction (F := Ideal) (φ := .f32) .add [2] S32x128 _ 0x00000000#32 reduces_S32x128x64_S32x128 (.inl rfl) rfl (ix2 r q)
      + extractAt ![0] b5 inpos_S1_p0 = _
  rw [multiReduction_add_last_printed]
  refine congrArg₂ (· + ·) (Finset.sum_congr rfl fun k _ => ?_) ?_
  · show shapeCast S32x128x64 H4 _ (ix3 r q k) * broadcastTo S32x128x64 _ _ (ix3 r q k) = _
    rw [shapeCast_mc_abc_apply H4 _ r q k ρ hρ, broadcastTo_11c_abc_apply, shapeCast_c_11c_apply]
  · exact congrArg b5 (funext fun a => by match a with | ⟨0, _⟩ => rfl)

/-! ## The slab's value at an entry -/

theorem plain_128_128 : Plain dot_S4096x128_S128x128_S4096x128_1_0_0_1_n_n := ⟨rfl, rfl, rfl, rfl, rfl, rfl⟩
theorem plain_128_64 : Plain dot_S4096x128_S128x64_S4096x64_1_0_0_1_n_n := ⟨rfl, rfl, rfl, rfl, rfl, rfl⟩
theorem plain_64_64 : Plain dot_S4096x64_S64x64_S4096x64_1_0_0_1_n_n := ⟨rfl, rfl, rfl, rfl, rfl, rfl⟩

/-- The slab's stored value at `(r, q)` is layers two to six applied to the first-layer activations of the pair of
    the slab's row `r` of `hx` with row `q` of `hy`. -/
theorem slab_apply (v13 : FVec Ideal S128x128 .bf16) (v15 : FVec Ideal S128 .bf16) (v17 : FVec Ideal S128x128 .bf16)
    (v18 : Vec Ideal S128 .f32) (v20 : FVec Ideal S128x64 .bf16) (v21 : Vec Ideal S64 .f32) (v23 : FVec Ideal S64x64 .bf16)
    (v24 : Vec Ideal S64 .f32) (v26 : FVec Ideal S64x64 .bf16) (v27 : Vec Ideal S64 .f32) (v29 : FVec Ideal S64 .f32)
    (v30 : Vec Ideal S1 .f32) (v31 : FVec Ideal S32x128 .bf16) (r : Fin 32) (q : Fin 128) :
    k0_pay10 v13 v15 v17 v18 v20 v21 v23 v24 v26 v27 v29 v30 v31 (ix2 r q)
      = tail (fun k n => v17 (ix2 k n)) (fun n => v18 (ix1 n)) (fun k n => v20 (ix2 k n)) (fun n => v21 (ix1 n))
          (fun k n => v23 (ix2 k n)) (fun n => v24 (ix1 n)) (fun k n => v26 (ix2 k n)) (fun n => v27 (ix1 n))
          (fun k => v29 (ix1 k)) (v30 (ix1 (0 : Fin 1)))
          (relu fun n => (v31 (ix2 r n) + v13 (ix2 q n)) + v15 (ix1 n)) := by
  have hlt : r.val * 128 + q.val < 4096 := by have := r.isLt; have := q.isLt; omega
  rw [slab_eq, last_apply _ _ _ r q ⟨r.val * 128 + q.val, hlt⟩ rfl]
  simp only [layer_apply _ plain_64_64, layer_apply _ plain_128_64, layer_apply _ plain_128_128,
    act0_apply _ _ _ r q _ ⟨r.val * 128 + q.val, hlt⟩ rfl]
  rfl

end Cert.KernelIdeal.Slab

end
-- ==== Proof.KernelBlock.lean ====
/-
  The kernel's whole 128 × 128 output block as one function of the blocks it loads.

  The body first forms `hx = xblock · W0x` and `hy = yblock · W0y` (two plain 64-term products), then stores four
  slabs of 32 rows; slab `s` uses rows `32 s … 32 s + 31` of `hx` against all of `hy`. So entry `(p, q)` of the block,
  whichever slab wrote it, is the score of row `p` of the x-block with row `q` of the y-block, and the four stores
  together are that one function.
-/
import proofs.«146270_j61692910240322_2_alg».proof.Proof.Gen.KernelIdeal.Frame
import proofs.«146270_j61692910240322_2_alg».proof.Proof.KernelChunk

noncomputable section

open scoped BigOperators

namespace Cert.KernelIdeal.Block

open Cert.KernelIdeal Cert.KernelIdeal.Gen Cert.KernelIdeal.Slab Idealize.ShloMosaic Idealize.ShloMosaic.ValueIdx
open Cert.PairScore Cert.LibKeepdims3 Cert.LibPlainDot

theorem hz2 : (![0, 0] : Fin 2 → Nat) = fun _ => 0 := funext fun a => by fin_cases a <;> rfl
theorem hz1 : (![0] : Fin 1 → Nat) = fun _ => 0 := funext fun a => by fin_cases a; rfl

theorem plain_64_128 : Plain dot_S128x64_S64x128_S128x128_1_0_0_1_n_n := ⟨rfl, rfl, rfl, rfl, rfl, rfl⟩

/-- The first-layer product of a 128 × 64 block with a 64 × 128 half of the first weight matrix, at an entry. -/
theorem hx_apply (v0 : Vec Ideal S128x64 .f32) (v4 : Vec Ideal S64x128 .f32) (p n : Fin 128) :
    k0_pay1 v0 v4 (ix2 p n) = ∑ k : Fin 64, v0 (ix2 p k) * v4 (ix2 k n) := by
  refine (show k0_pay1 v0 v4 (ix2 p n) = _ from
    Ideal.matmul_constant_zero_apply dot_S128x64_S64x128_S128x128_1_0_0_1_n_n none (v0 : FVec Ideal S128x64 .bf16)
      (shapeCast S64x128 v4 shapeCasts_S64x128_S64x128 : FVec Ideal S64x128 .bf16) (ix2 p n)).trans ?_
  rw [shapeCast_self]
  exact plain_64_128.sum_eq v0 v4 p n

/-- The block's entry `(p, q)`: the score of row `p` of the x-block with row `q` of the y-block. -/
def blockScore (x0 x1 : Vec Ideal S128x64 .f32) (x2 x3 : Vec Ideal S64x128 .f32) (x4 : Vec Ideal S128 .f32) (x5 : Vec Ideal S128x128 .f32)
    (x6 : Vec Ideal S128 .f32) (x7 : Vec Ideal S128x64 .f32) (x8 : Vec Ideal S64 .f32) (x9 : Vec Ideal S64x64 .f32) (x10 : Vec Ideal S64 .f32)
    (x11 : Vec Ideal S64x64 .f32) (x12 : Vec Ideal S64 .f32) (x13 : Vec Ideal S64x1 .f32) (x14 : Vec Ideal S1 .f32) (p q : Fin 128) : EReal :=
  pairScore (fun k => x0 (ix2 p k)) (fun k => x1 (ix2 q k)) (fun k n => x2 (ix2 k n)) (fun k n => x3 (ix2 k n))
    (fun n => x4 (ix1 n)) (fun k n => x5 (ix2 k n)) (fun n => x6 (ix1 n)) (fun k n => x7 (ix2 k n)) (fun n => x8 (ix1 n))
    (fun k n => x9 (ix2 k n)) (fun n => x10 (ix1 n)) (fun k n => x11 (ix2 k n)) (fun n => x12 (ix1 n))
    (fun k => x13 (ix2 k (0 : Fin 1))) (x14 (ix1 (0 : Fin 1)))

/-- The block as a function of its index. -/
def blockFn (x0 x1 : Vec Ideal S128x64 .f32) (x2 x3 : Vec Ideal S64x128 .f32) (x4 : Vec Ideal S128 .f32) (x5 : Vec Ideal S128x128 .f32)
    (x6 : Vec Ideal S128 .f32) (x7 : Vec Ideal S128x64 .f32) (x8 : Vec Ideal S64 .f32) (x9 : Vec Ideal S64x64 .f32) (x10 : Vec Ideal S64 .f32)
    (x11 : Vec Ideal S64x64 .f32) (x12 : Vec Ideal S64 .f32) (x13 : Vec Ideal S64x1 .f32) (x14 : Vec Ideal S1 .f32) : S128x128.Idx → EReal :=
  fun y => blockScore x0 x1 x2 x3 x4 x5 x6 x7 x8 x9 x10 x11 x12 x13 x14 (y 0) (y 1)

theorem tail_congr {W1 : Fin 128 → Fin 128 → EReal} {b1 : Fin 128 → EReal} {W2 : Fin 128 → Fin 64 → EReal} {b2 : Fin 64 → EReal}
    {W3 : Fin 64 → Fin 64 → EReal} {b3 : Fin 64 → EReal} {W4 : Fin 64 → Fin 64 → EReal} {b4 : Fin 64 → EReal}
    {w5 w5' : Fin 64 → EReal} {b5 : EReal} {h0 h0' : Fin 128 → EReal} (e5 : w5 = w5') (e0 : h0 = h0') :
    tail W1 b1 W2 b2 W3 b3 W4 b4 w5 b5 h0 = tail W1 b1 W2 b2 W3 b3 W4 b4 w5' b5 h0' := by
  subst e5; subst e0; rfl

/-- The slab cut from `hx` at row offset `o`, at `(r, q)`, is the block's entry `(o + r, q)`. -/
theorem slab_at (x0 x1 : Vec Ideal S128x64 .f32) (x2 x3 : Vec Ideal S64x128 .f32) (x4 : Vec Ideal S128 .f32) (x5 : Vec Ideal S128x128 .f32)
    (x6 : Vec Ideal S128 .f32) (x7 : Vec Ideal S128x64 .f32) (x8 : Vec Ideal S64 .f32) (x9 : Vec Ideal S64x64 .f32) (x10 : Vec Ideal S64 .f32)
    (x11 : Vec Ideal S64x64 .f32) (x12 : Vec Ideal S64 .f32) (x13 : Vec Ideal S64x1 .f32) (x14 : Vec Ideal S1 .f32)
    (o : ℕ) (h : S128x128.Slices ![o, 0] S32x128) (r : Fin 32) (q : Fin 128) (p q' : Fin 128) (hp : p.val = o + r.val)
    (hq : q'.val = q.val) :
    k0_pay10 (k0_pay2 x1 x3) (k0_pay3 x4) (k0_pay4 x5) x6 (k0_pay5 x7) x8 (k0_pay6 x9) x10 (k0_pay7 x11) x12 (k0_pay8 x13) x14
        (extractStridedSlice S32x128 ![o, 0] (k0_pay1 x0 x2) h) (ix2 r q)
      = blockScore x0 x1 x2 x3 x4 x5 x6 x7 x8 x9 x10 x11 x12 x13 x14 p q' := by
  obtain rfl : q' = q := Fin.ext hq
  have e0 : (fun n : Fin 128 => (extractStridedSlice S32x128 ![o, 0] (k0_pay1 x0 x2) h (ix2 r n) + k0_pay2 x1 x3 (ix2 q' n)) + k0_pay3 x4 (ix1 n))
      = fun n => ((∑ k : Fin 64, x0 (ix2 p k) * x2 (ix2 k n)) + (∑ k : Fin 64, x1 (ix2 q' k) * x3 (ix2 k n))) + x4 (ix1 n) :=
    funext fun n => by
      rw [slice2_axis0_apply o _ h r n p hp, hx_apply, show k0_pay2 x1 x3 = k0_pay1 x1 x3 from rfl, hx_apply]
      rfl
  have e5 : (fun k : Fin 64 => k0_pay8 x13 (ix1 k)) = fun k => x13 (ix2 k (0 : Fin 1)) :=
    funext fun k => shapeCast_a1_a_apply x13 _ k
  exact (slab_apply _ _ _ _ _ _ _ _ _ _ _ _ _ r q').trans (tail_congr e5 (congrArg relu e0))

/-- The four stores, last first, are the block function: each slab is its rows of it, and the slabs tile the block. -/
theorem out_eq (x0 x1 : Vec Ideal S128x64 .f32) (x2 x3 : Vec Ideal S64x128 .f32) (x4 : Vec Ideal S128 .f32) (x5 : Vec Ideal S128x128 .f32)
    (x6 : Vec Ideal S128 .f32) (x7 : Vec Ideal S128x64 .f32) (x8 : Vec Ideal S64 .f32) (x9 : Vec Ideal S64x64 .f32) (x10 : Vec Ideal S64 .f32)
    (x11 : Vec Ideal S64x64 .f32) (x12 : Vec Ideal S64 .f32) (x13 : Vec Ideal S64x1 .f32) (x14 : Vec Ideal S1 .f32) :
    out0_15 x0 x1 x2 x3 x4 x5 x6 x7 x8 x9 x10 x11 x12 x13 x14 = blockFn x0 x1 x2 x3 x4 x5 x6 x7 x8 x9 x10 x11 x12 x13 x14 := by
  funext y
  unfold out0_15
  simp only [View.ld_unit_zero (S := S128x64) hz2, View.ld_unit_zero (S := S64x128) hz2, View.ld_unit_zero (S := S128) hz1,
    View.ld_unit_zero (S := S128x128) hz2, View.ld_unit_zero (S := S64) hz1, View.ld_unit_zero (S := S64x64) hz2,
    View.ld_unit_zero (S := S64x1) hz2, View.ld_unit_zero (S := S1) hz1]
  refine View.canon_apply_of_pieces (Val := Elt Ideal) (e := .f32) (blockFn x0 x1 x2 x3 x4 x5 x6 x7 x8 x9 x10 x11 x12 x13 x14) _ ?_ y (cover0_15 _ _ _ _ y)
  intro pc hpc x
  simp only [List.mem_cons, List.not_mem_nil, or_false] at hpc
  rcases hpc with rfl | rfl | rfl | rfl
  · obtain ⟨r, q, rfl⟩ : ∃ (r : Fin 32) (q : Fin 128), x = ix2 r q := ⟨x 0, x 1, eq_ix2 x⟩
    exact slab_at x0 x1 x2 x3 x4 x5 x6 x7 x8 x9 x10 x11 x12 x13 x14 96 slices_S128x128_o96_0_S32x128 r q _ _
      (by show 96 + 1 * r.val = 96 + r.val; omega) (by show 0 + 1 * q.val = q.val; omega)
  · obtain ⟨r, q, rfl⟩ : ∃ (r : Fin 32) (q : Fin 128), x = ix2 r q := ⟨x 0, x 1, eq_ix2 x⟩
    exact slab_at x0 x1 x2 x3 x4 x5 x6 x7 x8 x9 x10 x11 x12 x13 x14 64 slices_S128x128_o64_0_S32x128 r q _ _
      (by show 64 + 1 * r.val = 64 + r.val; omega) (by show 0 + 1 * q.val = q.val; omega)
  · obtain ⟨r, q, rfl⟩ : ∃ (r : Fin 32) (q : Fin 128), x = ix2 r q := ⟨x 0, x 1, eq_ix2 x⟩
    exact slab_at x0 x1 x2 x3 x4 x5 x6 x7 x8 x9 x10 x11 x12 x13 x14 32 slices_S128x128_o32_0_S32x128 r q _ _
      (by show 32 + 1 * r.val = 32 + r.val; omega) (by show 0 + 1 * q.val = q.val; omega)
  · obtain ⟨r, q, rfl⟩ : ∃ (r : Fin 32) (q : Fin 128), x = ix2 r q := ⟨x 0, x 1, eq_ix2 x⟩
    exact slab_at x0 x1 x2 x3 x4 x5 x6 x7 x8 x9 x10 x11 x12 x13 x14 0 slices_S128x128_o0_0_S32x128 r q _ _
      (by show 0 + 1 * r.val = 0 + r.val; omega) (by show 0 + 1 * q.val = q.val; omega)

end Cert.KernelIdeal.Block

end
-- ==== Proof.KernelValue.lean ====
/-
  The kernel's result array as one function of the argument arrays.

  The grid has 8 × 8 points; point `(i, j)` loads rows `128 i …` of `x`, rows `128 j …` of `y`, the two halves of the
  first weight matrix (cut on the host before the launch) and all the other weights whole, and writes block `(i, j)` of
  the 1024 × 1024 result. Its block's entry `(a, b)` is the score of row `a` of the x-block with row `b` of the
  y-block, that is of `x (128 i + a)` with `y (128 j + b)`: the blocks are restrictions of the one table of scores,
  and they tile the result.
-/
import proofs.«146270_j61692910240322_2_alg».proof.Proof.Gen.KernelIdeal.Value
import proofs.«146270_j61692910240322_2_alg».proof.Proof.KernelBlock
import Idealize.ShloMosaic.Lib.StableHlo.Run

noncomputable section

open scoped BigOperators

namespace Cert.KernelIdeal.ScoreValue

open Cert.KernelIdeal Cert.KernelIdeal.Gen Cert.KernelIdeal.Value Cert.KernelIdeal.Block
open Idealize.ShloMosaic Idealize.ShloMosaic.TcCoe Idealize.SL.Sem Idealize.ShloMosaic.ValueIdx
open Idealize.ShloMosaic.Pipeline (Dat)
open Cert.PairScore

variable (m : (ℓ : Loc nD τ sig) → Buf (Elt Ideal) ℓ) (ρ : Dev nD → PrngReg)

/-! ## The windows' blocks as parts of the arrays -/

/-- The printed index maps over the grid: the x-window follows the output's row block, the y-window its column block. -/
theorem moves : ∀ t : Fin cfg0.N, win0_0.index t (0 : Fin 2) = win0_15.index t (0 : Fin 2) ∧ win0_0.index t (1 : Fin 2) = 0
    ∧ win0_1.index t (0 : Fin 2) = win0_15.index t (1 : Fin 2) ∧ win0_1.index t (1 : Fin 2) = 0
    ∧ win0_15.index t (0 : Fin 2) ≤ 7 ∧ win0_15.index t (1 : Fin 2) ≤ 7 :=
  (by decide +kernel : ∀ t : Fin grid0.N, _)

/-- Every block of the result is some point's. -/
theorem onto : ∀ (q0 q1 : Fin 8), ∃ t : Fin cfg0.N, win0_15.index t = ![q0.val, q1.val] :=
  (by decide +kernel : ∀ (q0 q1 : Fin 8), ∃ t : Fin grid0.N, win0_15.index t = ![q0.val, q1.val])

/-- Row `a` of the x-window's block at point `t` is row `128 · (the output's row block) + a` of `x`. -/
theorem xblk_apply (c : Dev nD) (t : Fin cfg0.N) (a : Fin 128) (k : Fin 64) (A : Fin 1024)
    (hA : A.val = win0_15.index t (0 : Fin 2) * 128 + a.val) :
    (iblk m c 0 t : Vec Ideal S128x64 .f32) (ix2 a k) = (m ((c : Thread nD τ).loc main_arg0) : S1024x64.Idx → EReal) (ix2 A k) := by
  obtain ⟨e0, e1, -, -, -, -⟩ := moves t
  unfold iblk
  rw [View.read_apply]
  show V m c main_arg0 _ = _
  rw [V_main_arg0]
  refine congrArg _ (funext fun ax => Fin.ext ?_)
  match ax with
  | ⟨0, _⟩ => show win0_0.index t (0 : Fin 2) * 128 + 1 * a.val = A.val; omega
  | ⟨1, _⟩ => show win0_0.index t (1 : Fin 2) * 64 + 1 * k.val = k.val; omega

/-- Row `b` of the y-window's block at point `t` is row `128 · (the output's column block) + b` of `y`. -/
theorem yblk_apply (c : Dev nD) (t : Fin cfg0.N) (b : Fin 128) (k : Fin 64) (B : Fin 1024)
    (hB : B.val = win0_15.index t (1 : Fin 2) * 128 + b.val) :
    (iblk m c 1 t : Vec Ideal S128x64 .f32) (ix2 b k) = (m ((c : Thread nD τ).loc main_arg1) : S1024x64.Idx → EReal) (ix2 B k) := by
  obtain ⟨-, -, e0, e1, -, -⟩ := moves t
  unfold iblk
  rw [View.read_apply]
  show V m c main_arg1 _ = _
  rw [V_main_arg1]
  refine congrArg _ (funext fun ax => Fin.ext ?_)
  match ax with
  | ⟨0, _⟩ => show win0_1.index t (0 : Fin 2) * 128 + 1 * b.val = B.val; omega
  | ⟨1, _⟩ => show win0_1.index t (1 : Fin 2) * 64 + 1 * k.val = k.val; omega

/-- Window 2 never moves: its block at every point is its whole array. -/
theorem zero2 : ∀ t : Fin cfg0.N, win0_2.index t (0 : Fin 2) = 0 ∧ win0_2.index t (1 : Fin 2) = 0 :=
  (by decide +kernel : ∀ t : Fin grid0.N, _)

theorem whole2 (c : Dev nD) (t : Fin cfg0.N) :
    (iblk m c 2 t : Vec Ideal S64x128 .f32) = (V m c main_v0 : S64x128.Idx → EReal) := by
  have hi := zero2 t
  funext y
  unfold iblk
  rw [View.read_apply]
  show V m c main_v0 _ = V m c main_v0 y
  refine congrArg _ (funext fun a => Fin.ext ?_)
  match a with
    | ⟨0, _⟩ => show win0_2.index t (0 : Fin 2) * 64 + 1 * (y 0).val = (y 0).val; rw [hi.1]; omega
    | ⟨1, _⟩ => show win0_2.index t (1 : Fin 2) * 128 + 1 * (y 1).val = (y 1).val; rw [hi.2]; omega

/-- Window 3 never moves: its block at every point is its whole array. -/
theorem zero3 : ∀ t : Fin cfg0.N, win0_3.index t (0 : Fin 2) = 0 ∧ win0_3.index t (1 : Fin 2) = 0 :=
  (by decide +kernel : ∀ t : Fin grid0.N, _)

theorem whole3 (c : Dev nD) (t : Fin cfg0.N) :
    (iblk m c 3 t : Vec Ideal S64x128 .f32) = (V m c main_v1 : S64x128.Idx → EReal) := by
  have hi := zero3 t
  funext y
  unfold iblk
  rw [View.read_apply]
  show V m c main_v1 _ = V m c main_v1 y
  refine congrArg _ (funext fun a => Fin.ext ?_)
  match a with
    | ⟨0, _⟩ => show win0_3.index t (0 : Fin 2) * 64 + 1 * (y 0).val = (y 0).val; rw [hi.1]; omega
    | ⟨1, _⟩ => show win0_3.index t (1 : Fin 2) * 128 + 1 * (y 1).val = (y 1).val; rw [hi.2]; omega

/-- Window 4 never moves: its block at every point is its whole array. -/
theorem zero4 : ∀ t : Fin cfg0.N, win0_4.index t (0 : Fin 1) = 0 :=
  (by decide +kernel : ∀ t : Fin grid0.N, _)

theorem whole4 (c : Dev nD) (t : Fin cfg0.N) :
    (iblk m c 4 t : Vec Ideal S128 .f32) = (V m c main_arg3 : S128.Idx → EReal) := by
  have hi := zero4 t
  funext y
  unfold iblk
  rw [View.read_apply]
  show V m c main_arg3 _ = V m c main_arg3 y
  refine congrArg _ (funext fun a => Fin.ext ?_)
  match a with
    | ⟨0, _⟩ => show win0_4.index t (0 : Fin 1) * 128 + 1 * (y 0).val = (y 0).val; rw [hi]; omega

/-- Window 5 never moves: its block at every point is its whole array. -/
theorem zero5 : ∀ t : Fin cfg0.N, win0_5.index t (0 : Fin 2) = 0 ∧ win0_5.index t (1 : Fin 2) = 0 :=
  (by decide +kernel : ∀ t : Fin grid0.N, _)

theorem whole5 (c : Dev nD) (t : Fin cfg0.N) :
    (iblk m c 5 t : Vec Ideal S128x128 .f32) = (V m c main_arg4 : S128x128.Idx → EReal) := by
  have hi := zero5 t
  funext y
  unfold iblk
  rw [View.read_apply]
  show V m c main_arg4 _ = V m c main_arg4 y
  refine congrArg _ (funext fun a => Fin.ext ?_)
  match a with
    | ⟨0, _⟩ => show win0_5.index t (0 : Fin 2) * 128 + 1 * (y 0).val = (y 0).val; rw [hi.1]; omega
    | ⟨1, _⟩ => show win0_5.index t (1 : Fin 2) * 128 + 1 * (y 1).val = (y 1).val; rw [hi.2]; omega

/-- Window 6 never moves: its block at every point is its whole array. -/
theorem zero6 : ∀ t : Fin cfg0.N, win0_6.index t (0 : Fin 1) = 0 :=
  (by decide +kernel : ∀ t : Fin grid0.N, _)

theorem whole6 (c : Dev nD) (t : Fin cfg0.N) :
    (iblk m c 6 t : Vec Ideal S128 .f32) = (V m c main_arg5 : S128.Idx → EReal) := by
  have hi := zero6 t
  funext y
  unfold iblk
  rw [View.read_apply]
  show V m c main_arg5 _ = V m c main_arg5 y
  refine congrArg _ (funext fun a => Fin.ext ?_)
  match a with
    | ⟨0, _⟩ => show win0_6.index t (0 : Fin 1) * 128 + 1 * (y 0).val = (y 0).val; rw [hi]; omega

/-- Window 7 never moves: its block at every point is its whole array. -/
theorem zero7 : ∀ t : Fin cfg0.N, win0_7.index t (0 : Fin 2) = 0 ∧ win0_7.index t (1 : Fin 2) = 0 :=
  (by decide +kernel : ∀ t : Fin grid0.N, _)

theorem whole7 (c : Dev nD) (t : Fin cfg0.N) :
    (iblk m c 7 t : Vec Ideal S128x64 .f32) = (V m c main_arg6 : S128x64.Idx → EReal) := by
  have hi := zero7 t
  funext y
  unfold iblk
  rw [View.read_apply]
  show V m c main_arg6 _ = V m c main_arg6 y
  refine congrArg _ (funext fun a => Fin.ext ?_)
  match a with
    | ⟨0, _⟩ => show win0_7.index t (0 : Fin 2) * 128 + 1 * (y 0).val = (y 0).val; rw [hi.1]; omega
    | ⟨1, _⟩ => show win0_7.index t (1 : Fin 2) * 64 + 1 * (y 1).val = (y 1).val; rw [hi.2]; omega

/-- Window 8 never moves: its block at every point is its whole array. -/
theorem zero8 : ∀ t : Fin cfg0.N, win0_8.index t (0 : Fin 1) = 0 :=
  (by decide +kernel : ∀ t : Fin grid0.N, _)

theorem whole8 (c : Dev nD) (t : Fin cfg0.N) :
    (iblk m c 8 t : Vec Ideal S64 .f32) = (V m c main_arg7 : S64.Idx → EReal) := by
  have hi := zero8 t
  funext y
  unfold iblk
  rw [View.read_apply]
  show V m c main_arg7 _ = V m c main_arg7 y
  refine congrArg _ (funext fun a => Fin.ext ?_)
  match a with
    | ⟨0, _⟩ => show win0_8.index t (0 : Fin 1) * 64 + 1 * (y 0).val = (y 0).val; rw [hi]; omega

/-- Window 9 never moves: its block at every point is its whole array. -/
theorem zero9 : ∀ t : Fin cfg0.N, win0_9.index t (0 : Fin 2) = 0 ∧ win0_9.index t (1 : Fin 2) = 0 :=
  (by decide +kernel : ∀ t : Fin grid0.N, _)

theorem whole9 (c : Dev nD) (t : Fin cfg0.N) :
    (iblk m c 9 t : Vec Ideal S64x64 .f32) = (V m c main_arg8 : S64x64.Idx → EReal) := by
  have hi := zero9 t
  funext y
  unfold iblk
  rw [View.read_apply]
  show V m c main_arg8 _ = V m c main_arg8 y
  refine congrArg _ (funext fun a => Fin.ext ?_)
  match a with
    | ⟨0, _⟩ => show win0_9.index t (0 : Fin 2) * 64 + 1 * (y 0).val = (y 0).val; rw [hi.1]; omega
    | ⟨1, _⟩ => show win0_9.index t (1 : Fin 2) * 64 + 1 * (y 1).val = (y 1).val; rw [hi.2]; omega

/-- Window 10 never moves: its block at every point is its whole array. -/
theorem zero10 : ∀ t : Fin cfg0.N, win0_10.index t (0 : Fin 1) = 0 :=
  (by decide +kernel : ∀ t : Fin grid0.N, _)

theorem whole10 (c : Dev nD) (t : Fin cfg0.N) :
    (iblk m c 10 t : Vec Ideal S64 .f32) = (V m c main_arg9 : S64.Idx → EReal) := by
  have hi := zero10 t
  funext y
  unfold iblk
  rw [View.read_apply]
  show V m c main_arg9 _ = V m c main_arg9 y
  refine congrArg _ (funext fun a => Fin.ext ?_)
  match a with
    | ⟨0, _⟩ => show win0_10.index t (0 : Fin 1) * 64 + 1 * (y 0).val = (y 0).val; rw [hi]; omega

/-- Window 11 never moves: its block at every point is its whole array. -/
theorem zero11 : ∀ t : Fin cfg0.N, win0_11.index t (0 : Fin 2) = 0 ∧ win0_11.index t (1 : Fin 2) = 0 :=
  (by decide +kernel : ∀ t : Fin grid0.N, _)

theorem whole11 (c : Dev nD) (t : Fin cfg0.N) :
    (iblk m c 11 t : Vec Ideal S64x64 .f32) = (V m c main_arg10 : S64x64.Idx → EReal) := by
  have hi := zero11 t
  funext y
  unfold iblk
  rw [View.read_apply]
  show V m c main_arg10 _ = V m c main_arg10 y
  refine congrArg _ (funext fun a => Fin.ext ?_)
  match a with
    | ⟨0, _⟩ => show win0_11.index t (0 : Fin 2) * 64 + 1 * (y 0).val = (y 0).val; rw [hi.1]; omega
    | ⟨1, _⟩ => show win0_11.index t (1 : Fin 2) * 64 + 1 * (y 1).val = (y 1).val; rw [hi.2]; omega

/-- Window 12 never moves: its block at every point is its whole array. -/
theorem zero12 : ∀ t : Fin cfg0.N, win0_12.index t (0 : Fin 1) = 0 :=
  (by decide +kernel : ∀ t : Fin grid0.N, _)

theorem whole12 (c : Dev nD) (t : Fin cfg0.N) :
    (iblk m c 12 t : Vec Ideal S64 .f32) = (V m c main_arg11 : S64.Idx → EReal) := by
  have hi := zero12 t
  funext y
  unfold iblk
  rw [View.read_apply]
  show V m c main_arg11 _ = V m c main_arg11 y
  refine congrArg _ (funext fun a => Fin.ext ?_)
  match a with
    | ⟨0, _⟩ => show win0_12.index t (0 : Fin 1) * 64 + 1 * (y 0).val = (y 0).val; rw [hi]; omega

/-- Window 13 never moves: its block at every point is its whole array. -/
theorem zero13 : ∀ t : Fin cfg0.N, win0_13.index t (0 : Fin 2) = 0 ∧ win0_13.index t (1 : Fin 2) = 0 :=
  (by decide +kernel : ∀ t : Fin grid0.N, _)

theorem whole13 (c : Dev nD) (t : Fin cfg0.N) :
    (iblk m c 13 t : Vec Ideal S64x1 .f32) = (V m c main_arg12 : S64x1.Idx → EReal) := by
  have hi := zero13 t
  funext y
  unfold iblk
  rw [View.read_apply]
  show V m c main_arg12 _ = V m c main_arg12 y
  refine congrArg _ (funext fun a => Fin.ext ?_)
  match a with
    | ⟨0, _⟩ => show win0_13.index t (0 : Fin 2) * 64 + 1 * (y 0).val = (y 0).val; rw [hi.1]; omega
    | ⟨1, _⟩ => show win0_13.index t (1 : Fin 2) * 1 + 1 * (y 1).val = (y 1).val; rw [hi.2]; omega

/-- Window 14 never moves: its block at every point is its whole array. -/
theorem zero14 : ∀ t : Fin cfg0.N, win0_14.index t (0 : Fin 1) = 0 :=
  (by decide +kernel : ∀ t : Fin grid0.N, _)

theorem whole14 (c : Dev nD) (t : Fin cfg0.N) :
    (iblk m c 14 t : Vec Ideal S1 .f32) = (V m c main_arg13 : S1.Idx → EReal) := by
  have hi := zero14 t
  funext y
  unfold iblk
  rw [View.read_apply]
  show V m c main_arg13 _ = V m c main_arg13 y
  refine congrArg _ (funext fun a => Fin.ext ?_)
  match a with
    | ⟨0, _⟩ => show win0_14.index t (0 : Fin 1) * 1 + 1 * (y 0).val = (y 0).val; rw [hi]; omega

/-! ## The two halves of the first weight matrix, cut before the launch -/

/-- Window 2's array is rows 0 … 63 of the first weight matrix. -/
theorem V_upper (c : Dev nD) : (V m c main_v0 : S64x128.Idx → EReal)
    = extractStridedSlice S64x128 ![0, 0] (m ((c : Thread nD τ).loc main_arg2) : S128x128.Idx → EReal) slices_S128x128_S64x128_0_0 := by
  dsimp only [Gen.V, Gen.hostOps0]; after_results

/-- Window 3's array is rows 64 … 127 of it. -/
theorem V_lower (c : Dev nD) : (V m c main_v1 : S64x128.Idx → EReal)
    = extractStridedSlice S64x128 ![64, 0] (m ((c : Thread nD τ).loc main_arg2) : S128x128.Idx → EReal) slices_S128x128_S64x128_64_0 := by
  dsimp only [Gen.V, Gen.hostOps0]; after_results

theorem upper_apply (c : Dev nD) (t : Fin cfg0.N) (k : Fin 64) (n : Fin 128) :
    (iblk m c 2 t : Vec Ideal S64x128 .f32) (ix2 k n)
      = (m ((c : Thread nD τ).loc main_arg2) : S128x128.Idx → EReal) (ix2 (Fin.castAdd 64 k) n) := by
  rw [whole2 m c t, V_upper]
  exact slice2_axis0_apply 0 _ _ k n (Fin.castAdd 64 k) (by show k.val = 0 + k.val; omega)

theorem lower_apply (c : Dev nD) (t : Fin cfg0.N) (k : Fin 64) (n : Fin 128) :
    (iblk m c 3 t : Vec Ideal S64x128 .f32) (ix2 k n)
      = (m ((c : Thread nD τ).loc main_arg2) : S128x128.Idx → EReal) (ix2 (Fin.natAdd 64 k) n) := by
  rw [whole3 m c t, V_lower]
  exact slice2_axis0_apply 64 _ _ k n (Fin.natAdd 64 k) rfl

/-! ## A block's entry is the table's entry -/

/-- The block's entry `(a, b)` is the table's entry `(A, B)` once row `a` of the x-block is row `A` of `x`, row `b` of the
    y-block is row `B` of `y`, and the two staged halves are the halves of the first weight matrix. -/
theorem entry_eq (x0 x1 : Vec Ideal S128x64 .f32) (x2 x3 : Vec Ideal S64x128 .f32) (x4 : Vec Ideal S128 .f32) (x5 : Vec Ideal S128x128 .f32)
    (x6 : Vec Ideal S128 .f32) (x7 : Vec Ideal S128x64 .f32) (x8 : Vec Ideal S64 .f32) (x9 : Vec Ideal S64x64 .f32) (x10 : Vec Ideal S64 .f32)
    (x11 : Vec Ideal S64x64 .f32) (x12 : Vec Ideal S64 .f32) (x13 : Vec Ideal S64x1 .f32) (x14 : Vec Ideal S1 .f32)
    (X Y : S1024x64.Idx → EReal) (W0 : S128x128.Idx → EReal) (a b : Fin 128) (A B : Fin 1024)
    (h0 : ∀ k, x0 (ix2 a k) = X (ix2 A k)) (h1 : ∀ k, x1 (ix2 b k) = Y (ix2 B k))
    (h2 : ∀ k n, x2 (ix2 k n) = W0 (ix2 (Fin.castAdd 64 k) n)) (h3 : ∀ k n, x3 (ix2 k n) = W0 (ix2 (Fin.natAdd 64 k) n)) :
    blockScore x0 x1 x2 x3 x4 x5 x6 x7 x8 x9 x10 x11 x12 x13 x14 a b = scoreAt X Y W0 x4 x5 x6 x7 x8 x9 x10 x11 x12 x13 x14 A B := by
  unfold blockScore scoreAt
  simp only [h0, h1, h2, h3]

/-- The table of scores of the launch memory's argument arrays. -/
abbrev table (c : Dev nD) : S1024x1024.Idx → EReal :=
  scores (m ((c : Thread nD τ).loc main_arg0) : S1024x64.Idx → EReal)
      (m ((c : Thread nD τ).loc main_arg1) : S1024x64.Idx → EReal)
      (m ((c : Thread nD τ).loc main_arg2) : S128x128.Idx → EReal)
      (m ((c : Thread nD τ).loc main_arg3) : S128.Idx → EReal)
      (m ((c : Thread nD τ).loc main_arg4) : S128x128.Idx → EReal)
      (m ((c : Thread nD τ).loc main_arg5) : S128.Idx → EReal)
      (m ((c : Thread nD τ).loc main_arg6) : S128x64.Idx → EReal)
      (m ((c : Thread nD τ).loc main_arg7) : S64.Idx → EReal)
      (m ((c : Thread nD τ).loc main_arg8) : S64x64.Idx → EReal)
      (m ((c : Thread nD τ).loc main_arg9) : S64.Idx → EReal)
      (m ((c : Thread nD τ).loc main_arg10) : S64x64.Idx → EReal)
      (m ((c : Thread nD τ).loc main_arg11) : S64.Idx → EReal)
      (m ((c : Thread nD τ).loc main_arg12) : S64x1.Idx → EReal)
      (m ((c : Thread nD τ).loc main_arg13) : S1.Idx → EReal)

/-- What point `t` writes back is block `t` of the table. -/
theorem flushed_eq (c : Dev nD) (t : Fin cfg0.N) :
    (dats m 0 c).flushed 15 t = ((cfg0.win 15).blk t).view.read (Elt Ideal) (table m c) := by
  rw [Value.flushed15]
  funext j
  obtain ⟨a, b, rfl⟩ : ∃ (a b : Fin 128), j = ix2 a b := ⟨j 0, j 1, eq_ix2 j⟩
  obtain ⟨-, -, -, -, l0, l1⟩ := moves t
  have ha := a.isLt
  have hb := b.isLt
  have hA : win0_15.index t (0 : Fin 2) * 128 + a.val < 1024 := by omega
  have hB : win0_15.index t (1 : Fin 2) * 128 + b.val < 1024 := by omega
  show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 a b)
    = table m c (((cfg0.win 15).blk t).view.emb (ix2 a b))
  have e : ((cfg0.win 15).blk t).view.emb (ix2 a b)
      = ix2 (⟨win0_15.index t (0 : Fin 2) * 128 + a.val, hA⟩ : Fin 1024) (⟨win0_15.index t (1 : Fin 2) * 128 + b.val, hB⟩ : Fin 1024) :=
    funext fun ax => Fin.ext (by
      match ax with
      | ⟨0, _⟩ => show win0_15.index t (0 : Fin 2) * 128 + 1 * a.val = win0_15.index t (0 : Fin 2) * 128 + a.val; omega
      | ⟨1, _⟩ => show win0_15.index t (1 : Fin 2) * 128 + 1 * b.val = win0_15.index t (1 : Fin 2) * 128 + b.val; omega)
  rw [e, out_eq]
  show blockScore (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) a b = scoreAt _ _ _ _ _ _ _ _ _ _ _ _ _ _ _ _
  rw [whole4 m c t, whole5 m c t, whole6 m c t, whole7 m c t, whole8 m c t, whole9 m c t, whole10 m c t, whole11 m c t,
    whole12 m c t, whole13 m c t, whole14 m c t, V_main_arg3, V_main_arg4, V_main_arg5, V_main_arg6, V_main_arg7, V_main_arg8,
    V_main_arg9, V_main_arg10, V_main_arg11, V_main_arg12, V_main_arg13]
  exact entry_eq _ _ _ _ _ _ _ _ _ _ _ _ _ _ _ _ _ _ a b _ _ (fun k => xblk_apply m c t a k _ rfl) (fun k => yblk_apply m c t b k _ rfl)
    (fun k n => upper_apply m c t k n) (fun k n => lower_apply m c t k n)

/-! ## The blocks tile the result -/

/-- An index of the result is in point `t`'s block iff each coordinate is in the block's range on its axis. -/
theorem mem_blk (t : Fin cfg0.N) (i : S1024x1024.Idx) :
    i ∈ ((cfg0.win 15).blk t).view.set ↔ ∀ a : Fin 2, win0_15.index t a * S128x128.size a ≤ (i a).val
      ∧ (i a).val < win0_15.index t a * S128x128.size a + S128x128.size a := by
  show i ∈ ((View.whole main_v2).slice (win0_15.rect t)).set ↔ _
  rw [View.set_slice_whole, Rect.mem_set_unit]
  exact Iff.rfl

/-- Entry `(P, Q)` lies in the block of the point whose output block is `(P / 128, Q / 128)`. -/
theorem covered (i : S1024x1024.Idx) :
    ∃ t : Fin cfg0.N, (cfg0.win 15).flush t = true ∧ i ∈ ((cfg0.win 15).blk t).view.set := by
  have hi0 : (i 0).val < 1024 := (i 0).isLt
  have hi1 : (i 1).val < 1024 := (i 1).isLt
  obtain ⟨t, ht⟩ := onto ⟨(i 0).val / 128, by omega⟩ ⟨(i 1).val / 128, by omega⟩
  have q0 : win0_15.index t (0 : Fin 2) = (i 0).val / 128 := congrFun ht 0
  have q1 : win0_15.index t (1 : Fin 2) = (i 1).val / 128 := congrFun ht 1
  refine ⟨t, flush0_15 t, ?_⟩
  rw [mem_blk]
  intro a
  match a with
  | ⟨0, _⟩ => show win0_15.index t (0 : Fin 2) * 128 ≤ (i 0).val ∧ (i 0).val < win0_15.index t (0 : Fin 2) * 128 + 128; omega
  | ⟨1, _⟩ => show win0_15.index t (1 : Fin 2) * 128 ≤ (i 1).val ∧ (i 1).val < win0_15.index t (1 : Fin 2) * 128 + 128; omega

/-- The result array after the run is the table of scores. -/
theorem final (c : Dev nD) : (dats m 0 c).arrAt 15 cfg0.N = table m c :=
  (dats m 0 c).arrAt_eq_of_cover 15 (table m c) (fun t _ => flushed_eq m c t) covered

/-- The kernel's run, read: the result array at the table of scores of the arguments, the arguments unchanged. -/
theorem run : θ_run defs (onTc (τ := τ) (main (F := Ideal))) ⟨m, fun _ => 0, ρ⟩ fun r => ∀ c : Dev nD,
      r.2.mem ((c : Thread nD τ).loc main_v2) = table m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Value.run_blocks m ρ)

end Cert.KernelIdeal.ScoreValue

end
-- ==== Proof.RefValue.lean ====
/-
  The reference, read entry by entry.

  The reference lists all 1024 · 1024 pairs as the rows of one matrix — row `q · 1024 + p` is `x p` followed by `y q` —
  runs the six layers on that matrix row by row, regroups the resulting column as a 1024 × 1024 table (entry
  `(q, p)` from row `q · 1024 + p`) and transposes it. So entry `(p, q)` of its result is the score of `x p` with
  `y q`. The one step that is not a plain reading: the first layer's 128-term product over the concatenated row is
  the sum of the 64-term product of `x p` with the upper half of the weights and the 64-term product of `y q` with the
  lower half — a sum over `Fin (64 + 64)` split at 64, which needs only that addition of extended reals is
  commutative and associative.
-/
import proofs.«146270_j61692910240322_2_alg».proof.Proof.Gen.ReferenceIdeal.Read
import proofs.«146270_j61692910240322_2_alg».proof.Proof.Spec
import Idealize.ShloMosaic.Lib.Pipeline.Value
import Idealize.ShloMosaic.PureOps.Ideal.Laws
import Mathlib.Algebra.BigOperators.Fin

noncomputable section

open scoped BigOperators

namespace Cert.ReferenceIdeal.RefValue

open Cert.ReferenceIdeal Cert.ReferenceIdeal.Gen Cert.ReferenceIdeal.Read Idealize.ShloMosaic Idealize.ShloMosaic.ValueIdx
open Cert.PairScore

/-! ## The matrix of pairs -/

/-- Row `q · 1024 + p` of the pair matrix holds `x p` in its first 64 columns … -/
theorem pair_left (x0 : (⟨S1024x64, .f32⟩ : BufTy).Contents (Elt Ideal)) (x1 : (⟨S1024x64, .f32⟩ : BufTy).Contents (Elt Ideal)) (p q : Fin 1024) (ρ : Fin 1048576) (hρ : ρ.val = q.val * 1024 + p.val) (k : Fin 64) :
    val_main_v5 (F := Ideal) x0 x1 (ix2 ρ (Fin.castAdd 64 k)) = x0 (ix2 p k) := by
  rw [val_main_v5_apply]
  unfold val_main_v4
  have hp := p.isLt
  have hq := q.isLt
  have hk := k.isLt
  refine (concatenate_pair_apply_left (t := S1024x1024x128) (s₁ := S1024x1024x64) (s₂ := S1024x1024x64) 2 (val_main_v1 (F := Ideal) x0)
    (val_main_v3 (F := Ideal) x1) concatenates_S1024x1024x64_S1024x1024x64_S1024x1024x128_d2 _ rfl (ix3 q p k) (fun b => ?_)).trans ?_
  · match b with
    | ⟨0, _⟩ => show q.val = (ρ.val * 128 + k.val) / 131072; omega
    | ⟨1, _⟩ => show p.val = (ρ.val * 128 + k.val) / 128 % 1024; omega
    | ⟨2, _⟩ => show k.val = (ρ.val * 128 + k.val) % 128; omega
  · rw [val_main_v1_apply, val_main_v0_apply]
    exact congrArg x0 (funext fun a => Fin.ext (by match a with | ⟨0, _⟩ => rfl | ⟨1, _⟩ => rfl))

/-- … and `y q` in its last 64. -/
theorem pair_right (x0 : (⟨S1024x64, .f32⟩ : BufTy).Contents (Elt Ideal)) (x1 : (⟨S1024x64, .f32⟩ : BufTy).Contents (Elt Ideal)) (p q : Fin 1024) (ρ : Fin 1048576) (hρ : ρ.val = q.val * 1024 + p.val) (k : Fin 64) :
    val_main_v5 (F := Ideal) x0 x1 (ix2 ρ (Fin.natAdd 64 k)) = x1 (ix2 q k) := by
  rw [val_main_v5_apply]
  unfold val_main_v4
  have hp := p.isLt
  have hq := q.isLt
  have hk := k.isLt
  refine (concatenate_pair_apply_right (t := S1024x1024x128) (s₁ := S1024x1024x64) (s₂ := S1024x1024x64) 2 (val_main_v1 (F := Ideal) x0)
    (val_main_v3 (F := Ideal) x1) concatenates_S1024x1024x64_S1024x1024x64_S1024x1024x128_d2 _ rfl rfl (ix3 q p k) (fun b hb => ?_) ?_).trans ?_
  · match b, hb with
    | ⟨0, _⟩, _ => show q.val = (ρ.val * 128 + (64 + k.val)) / 131072; omega
    | ⟨1, _⟩, _ => show p.val = (ρ.val * 128 + (64 + k.val)) / 128 % 1024; omega
    | ⟨2, _⟩, hb => exact absurd rfl hb
  · show k.val + 64 = (ρ.val * 128 + (64 + k.val)) % 128
    omega
  · rw [val_main_v3_apply, val_main_v2_apply]
    exact congrArg x1 (funext fun a => Fin.ext (by match a with | ⟨0, _⟩ => rfl | ⟨1, _⟩ => rfl))

/-! ## The layers, row by row -/

/-- Layer 1 of the reference on row `ρ`, as the reference writes it: one 128-term product over the concatenated row. -/
theorem layer0_whole (x0 : (⟨S1024x64, .f32⟩ : BufTy).Contents (Elt Ideal)) (x1 : (⟨S1024x64, .f32⟩ : BufTy).Contents (Elt Ideal)) (x2 : (⟨S128x128, .f32⟩ : BufTy).Contents (Elt Ideal)) (x3 : (⟨S128, .f32⟩ : BufTy).Contents (Elt Ideal)) (ρ : Fin 1048576) (n : Fin 128) :
    val_main_v10 (F := Ideal) x0 x1 x2 x3 (ix2 ρ n)
      = max ((∑ k : Fin 128, val_main_v5 (F := Ideal) x0 x1 (ix2 ρ k) * x2 (ix2 k n)) + x3 (ix1 n)) 0 := by
  rw [val_main_v10_apply, val_main_v9_apply, val_main_v6_apply, val_main_v8_apply, val_main_v7_apply,
    val_main_call0_v0_apply, val_main_call0_cst_apply]
  have el : ∀ k, lidx_main_v6 (ix2 ρ n) k = ix2 ρ k := fun k => funext fun a => Fin.ext (by match a with | ⟨0, _⟩ => rfl | ⟨1, _⟩ => rfl)
  have er : ∀ k, ridx_main_v6 (ix2 ρ n) k = ix2 k n := fun k => funext fun a => Fin.ext (by match a with | ⟨0, _⟩ => rfl | ⟨1, _⟩ => rfl)
  have eb : idx_main_v7 (idx_main_v8 (ix2 ρ n)) = ix1 n := funext fun a => Fin.ext (by match a with | ⟨0, _⟩ => rfl)
  simp only [el, er, eb]
  show max (_ + _) (Ideal.ofBits .f32 0x00000000#32) = _
  rw [Ideal.ofBits_zero_f32]

/-- The same with the product split at column 64: `x p` against the upper half of the weights plus `y q` against the
    lower half. -/
theorem layer0 (x0 : (⟨S1024x64, .f32⟩ : BufTy).Contents (Elt Ideal)) (x1 : (⟨S1024x64, .f32⟩ : BufTy).Contents (Elt Ideal)) (x2 : (⟨S128x128, .f32⟩ : BufTy).Contents (Elt Ideal)) (x3 : (⟨S128, .f32⟩ : BufTy).Contents (Elt Ideal)) (p q : Fin 1024) (ρ : Fin 1048576) (hρ : ρ.val = q.val * 1024 + p.val) (n : Fin 128) :
    val_main_v10 (F := Ideal) x0 x1 x2 x3 (ix2 ρ n)
      = max (((∑ k : Fin 64, x0 (ix2 p k) * x2 (ix2 (Fin.castAdd 64 k) n))
          + (∑ k : Fin 64, x1 (ix2 q k) * x2 (ix2 (Fin.natAdd 64 k) n))) + x3 (ix1 n)) 0 := by
  rw [layer0_whole]
  refine congrArg (fun z => max (z + x3 (ix1 n)) 0) ?_
  refine (Fin.sum_univ_add (a := 64) (b := 64)
    (fun k : Fin (64 + 64) => val_main_v5 (F := Ideal) x0 x1 (ix2 ρ k) * x2 (ix2 k n))).trans ?_
  refine congrArg₂ (· + ·) (Finset.sum_congr rfl fun k _ => ?_) (Finset.sum_congr rfl fun k _ => ?_)
  · show val_main_v5 (F := Ideal) x0 x1 (ix2 ρ (Fin.castAdd 64 k)) * x2 (ix2 (Fin.castAdd 64 k) n) = _
    rw [pair_left x0 x1 p q ρ hρ k]
  · show val_main_v5 (F := Ideal) x0 x1 (ix2 ρ (Fin.natAdd 64 k)) * x2 (ix2 (Fin.natAdd 64 k) n) = _
    rw [pair_right x0 x1 p q ρ hρ k]

/-- Layer 2 of the reference, row by row: the 128-term product with the weights, the bias, the rectifier. -/
theorem layer1 (x0 : (⟨S1024x64, .f32⟩ : BufTy).Contents (Elt Ideal)) (x1 : (⟨S1024x64, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (ρ : Fin 1048576) (n : Fin 128) :
    val_main_v15 (F := Ideal) x0 x1 x2 x3 x4 x5 (ix2 ρ n)
      = max ((∑ k : Fin 128, val_main_v10 (F := Ideal) x0 x1 x2 x3 (ix2 ρ k) * x4 (ix2 k n)) + x5 (ix1 n)) 0 := by
  rw [val_main_v15_apply, val_main_v14_apply, val_main_v11_apply, val_main_v13_apply, val_main_v12_apply,
    val_main_call1_v0_apply, val_main_call1_cst_apply]
  have el : ∀ k, lidx_main_v11 (ix2 ρ n) k = ix2 ρ k := fun k => funext fun a => Fin.ext (by match a with | ⟨0, _⟩ => rfl | ⟨1, _⟩ => rfl)
  have er : ∀ k, ridx_main_v11 (ix2 ρ n) k = ix2 k n := fun k => funext fun a => Fin.ext (by match a with | ⟨0, _⟩ => rfl | ⟨1, _⟩ => rfl)
  have eb : idx_main_v12 (idx_main_v13 (ix2 ρ n)) = ix1 n := funext fun a => Fin.ext (by match a with | ⟨0, _⟩ => rfl)
  simp only [el, er, eb]
  show max (_ + _) (Ideal.ofBits .f32 0x00000000#32) = _
  rw [Ideal.ofBits_zero_f32]

/-- Layer 3 of the reference, row by row: the 128-term product with the weights, the bias, the rectifier. -/
theorem layer2 (x0 : (⟨S1024x64, .f32⟩ : BufTy).Contents (Elt Ideal)) (x1 : (⟨S1024x64, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (ρ : Fin 1048576) (n : Fin 64) :
    val_main_v20 (F := Ideal) x0 x1 x2 x3 x4 x5 x6 x7 (ix2 ρ n)
      = max ((∑ k : Fin 128, val_main_v15 (F := Ideal) x0 x1 x2 x3 x4 x5 (ix2 ρ k) * x6 (ix2 k n)) + x7 (ix1 n)) 0 := by
  rw [val_main_v20_apply, val_main_v19_apply, val_main_v16_apply, val_main_v18_apply, val_main_v17_apply,
    val_main_call2_v0_apply, val_main_call2_cst_apply]
  have el : ∀ k, lidx_main_v16 (ix2 ρ n) k = ix2 ρ k := fun k => funext fun a => Fin.ext (by match a with | ⟨0, _⟩ => rfl | ⟨1, _⟩ => rfl)
  have er : ∀ k, ridx_main_v16 (ix2 ρ n) k = ix2 k n := fun k => funext fun a => Fin.ext (by match a with | ⟨0, _⟩ => rfl | ⟨1, _⟩ => rfl)
  have eb : idx_main_v17 (idx_main_v18 (ix2 ρ n)) = ix1 n := funext fun a => Fin.ext (by match a with | ⟨0, _⟩ => rfl)
  simp only [el, er, eb]
  show max (_ + _) (Ideal.ofBits .f32 0x00000000#32) = _
  rw [Ideal.ofBits_zero_f32]

/-- Layer 4 of the reference, row by row: the 64-term product with the weights, the bias, the rectifier. -/
theorem layer3 (x0 : (⟨S1024x64, .f32⟩ : BufTy).Contents (Elt Ideal)) (x1 : (⟨S1024x64, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (ρ : Fin 1048576) (n : Fin 64) :
    val_main_v25 (F := Ideal) x0 x1 x2 x3 x4 x5 x6 x7 x8 x9 (ix2 ρ n)
      = max ((∑ k : Fin 64, val_main_v20 (F := Ideal) x0 x1 x2 x3 x4 x5 x6 x7 (ix2 ρ k) * x8 (ix2 k n)) + x9 (ix1 n)) 0 := by
  rw [val_main_v25_apply, val_main_v24_apply, val_main_v21_apply, val_main_v23_apply, val_main_v22_apply,
    val_main_call3_v0_apply, val_main_call3_cst_apply]
  have el : ∀ k, lidx_main_v21 (ix2 ρ n) k = ix2 ρ k := fun k => funext fun a => Fin.ext (by match a with | ⟨0, _⟩ => rfl | ⟨1, _⟩ => rfl)
  have er : ∀ k, ridx_main_v21 (ix2 ρ n) k = ix2 k n := fun k => funext fun a => Fin.ext (by match a with | ⟨0, _⟩ => rfl | ⟨1, _⟩ => rfl)
  have eb : idx_main_v22 (idx_main_v23 (ix2 ρ n)) = ix1 n := funext fun a => Fin.ext (by match a with | ⟨0, _⟩ => rfl)
  simp only [el, er, eb]
  show max (_ + _) (Ideal.ofBits .f32 0x00000000#32) = _
  rw [Ideal.ofBits_zero_f32]

/-- Layer 5 of the reference, row by row: the 64-term product with the weights, the bias, the rectifier. -/
theorem layer4 (x0 : (⟨S1024x64, .f32⟩ : BufTy).Contents (Elt Ideal)) (x1 : (⟨S1024x64, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (ρ : Fin 1048576) (n : Fin 64) :
    val_main_v30 (F := Ideal) x0 x1 x2 x3 x4 x5 x6 x7 x8 x9 x10 x11 (ix2 ρ n)
      = max ((∑ k : Fin 64, val_main_v25 (F := Ideal) x0 x1 x2 x3 x4 x5 x6 x7 x8 x9 (ix2 ρ k) * x10 (ix2 k n)) + x11 (ix1 n)) 0 := by
  rw [val_main_v30_apply, val_main_v29_apply, val_main_v26_apply, val_main_v28_apply, val_main_v27_apply,
    val_main_call4_v0_apply, val_main_call4_cst_apply]
  have el : ∀ k, lidx_main_v26 (ix2 ρ n) k = ix2 ρ k := fun k => funext fun a => Fin.ext (by match a with | ⟨0, _⟩ => rfl | ⟨1, _⟩ => rfl)
  have er : ∀ k, ridx_main_v26 (ix2 ρ n) k = ix2 k n := fun k => funext fun a => Fin.ext (by match a with | ⟨0, _⟩ => rfl | ⟨1, _⟩ => rfl)
  have eb : idx_main_v27 (idx_main_v28 (ix2 ρ n)) = ix1 n := funext fun a => Fin.ext (by match a with | ⟨0, _⟩ => rfl)
  simp only [el, er, eb]
  show max (_ + _) (Ideal.ofBits .f32 0x00000000#32) = _
  rw [Ideal.ofBits_zero_f32]

/-! ## The result at an entry -/

/-- Entry `(p, q)` of the reference's result is the score of `x p` with `y q`. -/
theorem result_apply (x0 : (⟨S1024x64, .f32⟩ : BufTy).Contents (Elt Ideal)) (x1 : (⟨S1024x64, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x1, .f32⟩ : BufTy).Contents (Elt Ideal)) (x13 : (⟨S1, .f32⟩ : BufTy).Contents (Elt Ideal)) (p q : Fin 1024) :
    val_main_v36 (F := Ideal) x0 x1 x2 x3 x4 x5 x6 x7 x8 x9 x10 x11 x12 x13 (ix2 p q) = scoreAt x0 x1 x2 x3 x4 x5 x6 x7 x8 x9 x10 x11 x12 x13 p q := by
  have hlt : q.val * 1024 + p.val < 1048576 := by have := p.isLt; have := q.isLt; omega
  rw [val_main_v36_apply, val_main_v35_apply, val_main_v34_apply, val_main_v31_apply, val_main_v33_apply, val_main_v32_apply]
  have e35 : idx_main_v35 (idx_main_v36 (ix2 p q)) = ix2 (⟨q.val * 1024 + p.val, hlt⟩ : Fin 1048576) (0 : Fin 1) :=
    funext fun a => Fin.ext (by
      match a with
      | ⟨0, _⟩ => show (q.val * 1024 + p.val) / 1 = q.val * 1024 + p.val; omega
      | ⟨1, _⟩ => rfl)
  rw [e35]
  have el : ∀ k, lidx_main_v31 (ix2 (⟨q.val * 1024 + p.val, hlt⟩ : Fin 1048576) (0 : Fin 1)) k = ix2 (⟨q.val * 1024 + p.val, hlt⟩ : Fin 1048576) k :=
    fun k => funext fun a => Fin.ext (by match a with | ⟨0, _⟩ => rfl | ⟨1, _⟩ => rfl)
  have er : ∀ k, ridx_main_v31 (ix2 (⟨q.val * 1024 + p.val, hlt⟩ : Fin 1048576) (0 : Fin 1)) k = ix2 k (0 : Fin 1) :=
    fun k => funext fun a => Fin.ext (by match a with | ⟨0, _⟩ => rfl | ⟨1, _⟩ => rfl)
  have eb : idx_main_v32 (idx_main_v33 (ix2 (⟨q.val * 1024 + p.val, hlt⟩ : Fin 1048576) (0 : Fin 1))) = ix1 (0 : Fin 1) := funext fun a => Fin.ext (by match a with | ⟨0, _⟩ => rfl)
  simp only [el, er, eb, layer4, layer3, layer2, layer1, layer0 x0 x1 x2 x3 p q ⟨q.val * 1024 + p.val, hlt⟩ rfl]
  rfl

/-- The reference's result array is the table of scores. -/
theorem result_eq (x0 : (⟨S1024x64, .f32⟩ : BufTy).Contents (Elt Ideal)) (x1 : (⟨S1024x64, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x1, .f32⟩ : BufTy).Contents (Elt Ideal)) (x13 : (⟨S1, .f32⟩ : BufTy).Contents (Elt Ideal)) :
    val_main_v36 (F := Ideal) x0 x1 x2 x3 x4 x5 x6 x7 x8 x9 x10 x11 x12 x13 = scores x0 x1 x2 x3 x4 x5 x6 x7 x8 x9 x10 x11 x12 x13 := by
  funext j
  obtain ⟨p, q, rfl⟩ : ∃ (p q : Fin 1024), j = ix2 p q := ⟨j 0, j 1, eq_ix2 j⟩
  exact result_apply x0 x1 x2 x3 x4 x5 x6 x7 x8 x9 x10 x11 x12 x13 p q

end Cert.ReferenceIdeal.RefValue

end
-- ==== Proof.lean ====
/-
  Both programs compute the 1024 × 1024 table whose entry `(p, q)` is a six-layer perceptron's score of the
  concatenated row `x p ++ y q` (`Proof/Spec.lean`: `PairScore.scores`).

  The kernel (`Proof/KernelChunk.lean`, `Proof/KernelBlock.lean`, `Proof/KernelValue.lean`) tiles the table in 128 × 128
  blocks; for a block it multiplies the x-rows by the upper half of the first weight matrix and the y-rows by the
  lower half once, and then, 32 rows at a time, forms every pair's first-layer activation `max (hx p + hy q + b0) 0`
  and runs the remaining layers on the 4096 pairs as the rows of one matrix. The reference (`Proof/RefValue.lean`)
  lists all pairs' concatenated rows as one matrix of 1024 · 1024 rows, runs the six layers on it, and regroups and
  transposes the resulting column. On the extended reals every change of float format is the identity and a matrix
  product is the plain sum of products, so the two agree entry by entry as soon as the first layer's 128-term sum
  over the concatenated row is split at column 64 — which uses only that addition is commutative and associative,
  so the inputs' finiteness is never needed. The ideal pass rewrote nothing, so `preserves` is trivial.
-/
import proofs.«146270_j61692910240322_2_alg».proof.Defs
import proofs.«146270_j61692910240322_2_alg».proof.Proof.Gen.Kernel
import proofs.«146270_j61692910240322_2_alg».proof.Proof.Gen.Kernel.Skeleton
import proofs.«146270_j61692910240322_2_alg».proof.Proof.Gen.Kernel.Launch
import proofs.«146270_j61692910240322_2_alg».proof.Proof.Gen.Kernel.Points
import proofs.«146270_j61692910240322_2_alg».proof.Proof.Gen.Kernel.Frame
import proofs.«146270_j61692910240322_2_alg».proof.Proof.Gen.KernelIdeal
import proofs.«146270_j61692910240322_2_alg».proof.Proof.Gen.KernelIdeal.Skeleton
import proofs.«146270_j61692910240322_2_alg».proof.Proof.Gen.KernelIdeal.Launch
import proofs.«146270_j61692910240322_2_alg».proof.Proof.Gen.KernelIdeal.Points
import proofs.«146270_j61692910240322_2_alg».proof.Proof.Gen.KernelIdeal.Frame
import proofs.«146270_j61692910240322_2_alg».proof.Proof.Gen.ReferenceIdeal
import proofs.«146270_j61692910240322_2_alg».proof.Proof.Gen.KernelIdeal.Value
import proofs.«146270_j61692910240322_2_alg».proof.Proof.Gen.ReferenceIdeal.Run
import proofs.«146270_j61692910240322_2_alg».proof.Proof.Gen.ReferenceIdeal.Read
import proofs.«146270_j61692910240322_2_alg».proof.Proof.Gen.Pre_finite_inputs
import proofs.«146270_j61692910240322_2_alg».proof.Proof.KernelValue
import proofs.«146270_j61692910240322_2_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the table of scores of the (agreeing) arguments. -/
theorem algebraic : Cert.algebraic_KernelIdeal_ReferenceIdeal := by
  intro m ρ m' ρ' _ hagree
  refine ⟨fun c => Cert.KernelIdeal.ScoreValue.table m c, Cert.KernelIdeal.ScoreValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefValue.result_eq]
  obtain ⟨h0, h1, h2, h3, h4, h5, h6, h7, h8, h9, h10, h11, h12, h13⟩ := hagree c
  rw [h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
